-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x64 : Shape := ⟨2, ![512, 64]⟩
abbrev S512x1 : Shape := ⟨2, ![512, 1]⟩
abbrev S1x512 : Shape := ⟨2, ![1, 512]⟩
abbrev S512 : Shape := ⟨1, ![512]⟩
abbrev S64x512 : Shape := ⟨2, ![64, 512]⟩
abbrev S512x512 : Shape := ⟨2, ![512, 512]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  broadcasts_S512x1_S512x64 : S512x1.Broadcasts S512x64
  bitsLt_bf16_f32 : FTy.bits .bf16 < FTy.bits .f32
  transposes_S512x64_p1_0_S64x512 : S512x64.Transposes [1, 0] S64x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S64x8192 : Shape := ⟨2, ![64, 8192]⟩
abbrev S8192x8192 : Shape := ⟨2, ![8192, 8192]⟩
abbrev S1x8192 : Shape := ⟨2, ![1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S64x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.WEntry.lean ====
/-
  What the kernel region is entered with, and the vocabulary the two runs of its body share.

  @main first lays the label vector out twice (as a column and as a row), then runs the region over a
  16 x 16 grid, then divides the region's 1x1 result by 2^26.  The region's four input windows are blocks of
  the row matrix (twice: the rows of the point's first and of its second coordinate) and of the two label
  layouts; its one output window and its one scratch buffer are 1x1.  The body zeroes the scratch at the
  first grid point only, adds the point's block sum to it, and copies it to the output's staging buffer.
-/
import proofs.«180346_j15504831938685_1_alg».proof.Proof.Gen.Kernel.Launch
import proofs.«180346_j15504831938685_1_alg».proof.Proof.Gen.Kernel.Skeleton
import proofs.«180346_j15504831938685_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- after the two layout operations, when the region is entered; -/
abbrev V₁ (c : Dev nD) : Valuation τ sig (Elt F) := StableHlo.after hostOps0 (V₀ m c)
/-- and the same read at a TensorCore reference. -/
abbrev V (c : Dev nD) (b : Ref sig .tc) : Buf (Elt F) ((c : Thread nD τ).loc b) := V₁ m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one branch: is this the first grid point? -/

/-- The body zeroes its accumulator exactly when both grid coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Over the grid's 256 points in order: at the point numbered 0 only. -/
theorem isFirst_iff : ∀ t : Fin cfg0.N, isFirst (grid0.coords t) ↔ t.val = 0 :=
  (by decide +kernel : ∀ t : Fin grid0.N, isFirst (grid0.coords t) ↔ t.val = 0)

/-! ## The staging memrefs at a point, and the scratch -/

abbrev ms0 (t : Fin cfg0.N) : Memref sig .tc .vmem S512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The 1x1 accumulator the kernel keeps between grid points. -/
abbrev accM : Memref sig .tc .vmem S1x1 .f32 := Memref.whole cc0_scratch0
/-- Views through which the accumulator's and the output buffer's contents are stated. -/
abbrev accV : View sig .tc .vmem S1x1 .f32 := accM.view
abbrev outV : View sig .tc .vmem S1x1 .f32 := (Memref.whole cc0_stg4_0 : Memref sig .tc .vmem S1x1 .f32).view

end Cert.Kernel.Hand

end
-- ==== Proof.WPointFirst.lean ====
/-
  The body at the first grid point: it zeroes the accumulator, adds the point's block sum, and copies the
  accumulator to the output's staging buffer.
-/
import proofs.«180346_j15504831938685_1_alg».proof.Proof.WEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first grid point, on whole memrefs — the four inputs' at their contents, the output's and the
    accumulator's at anything — the body runs to a state holding the inputs' as they were and the output's buffer and
    the accumulator each with the listed stores written (the lists are what the run leaves: last store first). -/
noncomputable def runFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i)
    (x0 : Vec F S512x64 .f32) (x1 : Vec F S512x64 .f32) (x2 : Vec F S512x1 .i32) (x3 : Vec F S1x512 .i32) :
    Σ' (LO : List (View.Piece (Elt F) S1x1 .f32)), { LA : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Hand

end
-- ==== Proof.WPointLater.lean ====
/-
  The body at a later grid point: it adds the point's block sum to the accumulator it finds, and copies the
  accumulator to the output's staging buffer.
-/
import proofs.«180346_j15504831938685_1_alg».proof.Proof.WEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a grid point after the first, on whole memrefs — the four inputs' at their contents, the accumulator's at
    what the point before left (`xs`), the output's at anything — the body runs to a state holding the inputs' as they were and the output's buffer and
    the accumulator each with the listed stores written (the lists are what the run leaves: last store first). -/
noncomputable def runLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i)
    (x0 : Vec F S512x64 .f32) (x1 : Vec F S512x64 .f32) (x2 : Vec F S512x1 .i32) (x3 : Vec F S1x512 .i32) (xs : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Hand

end
-- ==== Proof.WCarried.lean ====
/-
  What the accumulator and the output's staging buffer hold after each grid point, the proof data of the
  pipeline, and the body obligation.

  After the first point both hold what the first run leaves; after point n + 1 what the later run leaves when it
  finds the accumulator of point n.  Between points the invariant is the accumulator at that value (before the
  first point: at anything).  The four input windows' buffers hold their blocks at every point, fetched there or
  not; the two windows on the row matrix each hold half of its share.
-/
import proofs.«180346_j15504831938685_1_alg».proof.Proof.WPointFirst
import proofs.«180346_j15504831938685_1_alg».proof.Proof.WPointLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, read back -/

theorem coverFirst_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) (y : S1x1.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S1x1.size (by sl_kernel_rfl) y
theorem coverFirst_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) (y : S1x1.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S1x1.size (by sl_kernel_rfl) y
/-- What the first point leaves in the output's staging buffer, -/
def outFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) : Vec F S1x1 .f32 :=
  outV.read (Elt F) (outV.writes (Elt F) outV.junk (runFirst c i arg2 harg2 arg3 harg3 arg4 harg4 arg5 harg5 arg6 harg6 arg7 harg7 hc x0 x1 x2 x3).1)
/-- and in the accumulator. -/
def accFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) : Vec F S1x1 .f32 :=
  accV.read (Elt F) (accV.writes (Elt F) accV.junk (runFirst c i arg2 harg2 arg3 harg3 arg4 harg4 arg5 harg5 arg6 harg6 arg7 harg7 hc x0 x1 x2 x3).2.1)

theorem coverLater_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) (y : S1x1.Idx) :
    ∃ pc ∈ (runLater c i arg2 harg2 arg3 harg3 arg4 harg4 arg5 harg5 arg6 harg6 arg7 harg7 hc x0 x1 x2 x3 xs).1, y ∈ pc.1.set :=
  View.cover_of_tiledL (runLater c i arg2 harg2 arg3 harg3 arg4 harg4 arg5 harg5 arg6 harg6 arg7 harg7 hc x0 x1 x2 x3 xs).1 S1x1.size (by sl_kernel_rfl) y
theorem coverLater_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) (y : S1x1.Idx) :
    ∃ pc ∈ (runLater c i arg2 harg2 arg3 harg3 arg4 harg4 arg5 harg5 arg6 harg6 arg7 harg7 hc x0 x1 x2 x3 xs).2.1, y ∈ pc.1.set :=
  View.cover_of_tiledL (runLater c i arg2 harg2 arg3 harg3 arg4 harg4 arg5 harg5 arg6 harg6 arg7 harg7 hc x0 x1 x2 x3 xs).2.1 S1x1.size (by sl_kernel_rfl) y
/-- What a later point leaves in the output's staging buffer, having found the accumulator at `xs`, -/
def outLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) : Vec F S1x1 .f32 :=
  outV.read (Elt F) (outV.writes (Elt F) outV.junk (runLater c i arg2 harg2 arg3 harg3 arg4 harg4 arg5 harg5 arg6 harg6 arg7 harg7 hc x0 x1 x2 x3 xs).1)
/-- and in the accumulator. -/
def accLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) : Vec F S1x1 .f32 :=
  accV.read (Elt F) (accV.writes (Elt F) accV.junk (runLater c i arg2 harg2 arg3 harg3 arg4 harg4 arg5 harg5 arg6 harg6 arg7 harg7 hc x0 x1 x2 x3 xs).2.1)

/-! ## Point by point -/

/-- The output's staging buffer and the accumulator after the body at position `n`. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (iblk m c 0 ⟨0, hn⟩) (iblk m c 1 ⟨0, hn⟩) (iblk m c 2 ⟨0, hn⟩) (iblk m c 3 ⟨0, hn⟩),
      accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (iblk m c 0 ⟨0, hn⟩) (iblk m c 1 ⟨0, hn⟩) (iblk m c 2 ⟨0, hn⟩) (iblk m c 3 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
      accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (hz : t.val = 0) :
    outsAt m c t.val t.isLt = (outFirst c (grid0.coords t) (ms0 t) (hs0 t) (ms1 t) (hs1 t) (ms2 t) (hs2 t) (ms3 t) (hs3 t) (ms4 t) (hs4 t) accM (Memref.isWhole_whole _) ((isFirst_iff t).mpr hz) (iblk m c 0 t) (iblk m c 1 t) (iblk m c 2 t) (iblk m c 3 t),
      accFirst c (grid0.coords t) (ms0 t) (hs0 t) (ms1 t) (hs1 t) (ms2 t) (hs2 t) (ms3 t) (hs3 t) (ms4 t) (hs4 t) accM (Memref.isWhole_whole _) ((isFirst_iff t).mpr hz) (iblk m c 0 t) (iblk m c 1 t) (iblk m c 2 t) (iblk m c 3 t)) := by
  obtain ⟨n, hn⟩ := t
  cases n with
  | zero => rfl
  | succ n => exact absurd hz (Nat.succ_ne_zero n)

theorem outsAt_later (c : Dev nD) (t : Fin cfg0.N) (hz : t.val ≠ 0) :
    outsAt m c t.val t.isLt = (outLater c (grid0.coords t) (ms0 t) (hs0 t) (ms1 t) (hs1 t) (ms2 t) (hs2 t) (ms3 t) (hs3 t) (ms4 t) (hs4 t) accM (Memref.isWhole_whole _) (fun h => hz ((isFirst_iff t).mp h)) (iblk m c 0 t) (iblk m c 1 t) (iblk m c 2 t) (iblk m c 3 t) (outsAt m c (t.val - 1) (Nat.lt_of_le_of_lt (Nat.sub_le _ _) t.isLt)).2,
      accLater c (grid0.coords t) (ms0 t) (hs0 t) (ms1 t) (hs1 t) (ms2 t) (hs2 t) (ms3 t) (hs3 t) (ms4 t) (hs4 t) accM (Memref.isWhole_whole _) (fun h => hz ((isFirst_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl hz
  | succ n => rfl

/-! ## The invariant between points -/

/-- The region's scoped buffers that no window stages are the accumulator alone. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- Before position `n`: the accumulator at anything (`n = 0`), else at what the point before left. -/
def PhiS (c : Dev nD) : (n : ℕ) → n ≤ cfg0.N → sProp 𝕄
  | 0, _ => Pipeline.scopedRest spec0 c
  | n + 1, hn => owns (c : Thread nD τ) accM fullShare ((outsAt m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) accM fullShare ((outsAt m c n hn).2) := rfl
theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-! ## The proof data -/

/-- On core `c`: the arrays as the region finds them; after the body each input's buffer at its block, the
    output's at `outsAt`; the invariant `PhiS`; the row matrix's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (ms0 t) fullShare (iblk m c 0 t) := by
  rw [← after_0]
theorem leaves_1 (c : Dev nD) (t : Fin cfg0.N) : (dats m 0 c).leavesExact 1 t = owns (c : Thread nD τ) (ms1 t) fullShare (iblk m c 1 t) := by
  rw [← after_1]
theorem leaves_2 (c : Dev nD) (t : Fin cfg0.N) : (dats m 0 c).leavesExact 2 t = owns (c : Thread nD τ) (ms2 t) fullShare (iblk m c 2 t) := by
  rw [← after_2]
theorem leaves_3 (c : Dev nD) (t : Fin cfg0.N) : (dats m 0 c).leavesExact 3 t = owns (c : Thread nD τ) (ms3 t) fullShare (iblk m c 3 t) := by
  rw [← after_3]
theorem leaves_4 (c : Dev nD) (t : Fin cfg0.N) : (dats m 0 c).leavesExact 4 t = owns (c : Thread nD τ) (ms4 t) fullShare ((outsAt m c t.val t.isLt).1) := by
  rw [← after_4]

set_option maxHeartbeats 4800000 in
/-- The body at any point: the inputs' buffers hold their blocks; at the first point the first run applies, the
    accumulator handed over at anything; at a later point the later run, the accumulator at what the point before left;
    either way the accumulator and the output's buffer are taken back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  by_cases hz : t.val = 0
  · rw [outsAt_first m c t hz]
    unfold outFirst accFirst; (try dsimp only)
    rw [PhiS_castSucc m c t, PhiS_zero m c _ _ hz, scopedRest_acc]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirst_acc c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst_out c _ _ _ _ _ _ _ _ _ _ _ _ _ _ _ _ _ _)
  · rw [outsAt_later m c t hz]
    unfold outLater accLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverLater_acc c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WSegments.lean ====
/-
  The launch: @main as the layout operations, the kernel region, and the final division.

  The two layout operations run over the unscoped buffers held whole.  The region takes the row matrix (half
  of its share to each of the two windows reading it), the two label layouts and the 1x1 result as its windows'
  arrays; the label vector and the buffers of the final division bypass it.  It gives the row matrix back whole
  and unchanged and the result at what the last grid point wrote.  The final reshape and division then run over
  the unscoped buffers again.  At the end the result buffer holds the quotient of the accumulated sum, and the two
  argument arrays hold what they held at launch.
-/
import proofs.«180346_j15504831938685_1_alg».proof.Proof.WCarried

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's own. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core's `owes`. -/
abbrev R (c : Dev nD) : sProp 𝕄 := iprop(∃ W, owes (c : Thread nD τ) (0 : CellTallies nD τ sig Unit) W)

/-! ## The unscoped buffers and the windows' arrays, one by one -/

omit [FloatOps F] in
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_cst) ↦{fullShare} W main_cst) ∗ (((c : Thread nD τ).loc main_v4) ↦{fullShare} W main_v4)) := by
  unfold unscopedBufs
  exact bigSep_eq_bigSepL_of_eq [main_arg0, main_arg1, main_v0, main_v1, main_v2, main_v3, main_cst, main_v4] (by decide) (by decide) _

/-- The pipeline's arrays: the row matrix twice, at the two halves of its share; the label layouts and the result whole. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0]
  rw [(arr_whole0 0).set_eq_univ, (arr_whole0 2).set_eq_univ, (arr_whole0 3).set_eq_univ, (arr_whole0 4).set_eq_univ]
  rfl

/-! ## The three segments -/

/-- The result array after the region: what the last grid point's write-back leaves. -/
abbrev outN (c : Dev nD) : Buf (Elt F) ((c : Thread nD τ).loc main_v2) := (dats m 0 c).arrAt 4 cfg0.N
/-- The buffers after the region: the result array written, the others as the region found them. -/
abbrev V₂ (c : Dev nD) : Valuation τ sig (Elt F) := Function.update (V₁ m c) (Proc.devRef .tc main_v2) (outN m c)
/-- The buffers at the end: after the reshape and the division. -/
abbrev V₃ (c : Dev nD) : Valuation τ sig (Elt F) := StableHlo.after hostOps1 (V₂ m c)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The layout operations, over the unscoped buffers at their launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- The reshape and the division, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (V₂ m) R

theorem Phi_last (c : Dev nD) : (dats m 0 c).Φ (Fin.last cfg0.N) ⊢ (iprop(∃ d, owns (c : Thread nD τ) accM fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega)]
  iintro HS; iexists _; iexact HS

theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  iintro ⟨%W, -, HO⟩; iexists W; iexact HO

/-- An input window's array is never written. -/
theorem arrAt_0 (c : Dev nD) (n : ℕ) : (dats m 0 c).arrAt 0 n = V m c main_arg0 := ((dats m 0 c).arrAt_in 0 rfl n).trans (A_eq m c 0)
theorem arrAt_1 (c : Dev nD) (n : ℕ) : (dats m 0 c).arrAt 1 n = V m c main_arg0 := ((dats m 0 c).arrAt_in 1 rfl n).trans (A_eq m c 1)
theorem arrAt_2 (c : Dev nD) (n : ℕ) : (dats m 0 c).arrAt 2 n = V m c main_v0 := ((dats m 0 c).arrAt_in 2 rfl n).trans (A_eq m c 2)
theorem arrAt_3 (c : Dev nD) (n : ℕ) : (dats m 0 c).arrAt 3 n = V m c main_v1 := ((dats m 0 c).arrAt_in 3 rfl n).trans (A_eq m c 3)

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₂ m c) ∗ R c)
  X _ := iprop(emp)
  Y _ := iprop(emp)
  Z c := iprop((((c : Thread nD τ).loc main_arg1) ↦{fullShare} V m c main_arg1) ∗ (((c : Thread nD τ).loc main_v3) ↦{fullShare} V m c main_v3)
          ∗ (((c : Thread nD τ).loc main_cst) ↦{fullShare} V m c main_cst) ∗ (((c : Thread nD τ).loc main_v4) ↦{fullShare} V m c main_v4))
  hentry c := by
    rw [show StableHlo.held (c : Thread nD τ) (Pipeline.ucRefs τ sig) (StableHlo.after hostOps0 (V₀ m c)) = unscopedBufs c (V m c) from (Pipeline.unscopedBufs_held c _).symm,
      unscopedBufs_list, arrays_list]
    iintro ⟨⟨⟨Ha0, Ha1, Hv0, Hv1, Hv2, Hv3, Hcst, Hv4⟩, HO⟩, -, -⟩
    ihave Ha0 := (pointsTo_share (PosShare.mem_left_op_right fullShare)).1 $$ Ha0
    icases Ha0 with ⟨HaL, HaR⟩
    imodintro
    isplitl [HaL HaR Hv0 Hv1 Hv2]
    · isplitl [HaL]; · iexact HaL
      isplitl [HaR]; · iexact HaR
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]; · iapply (owesAt_intro m c 0); iexact HO
    isplitr; · iempintro
    isplitl [Ha1]; · iexact Ha1
    isplitl [Hv3]; · iexact Hv3
    isplitl [Hcst]; · iexact Hcst
    iexact Hv4
  hin c := by
    rw [show (dats m 0 c).Φ 0 = Pipeline.scopedRest spec0 c from rfl]
    iintro ⟨-, -, Hr⟩; iexact Hr
  hout c := by
    rw [Pipeline.ownSems0_none, scopedRest_acc]
    iintro H
    ihave H := (Phi_last m c) $$ H
    isplitr; · iempintro
    isplitr; · iempintro
    iexact H
  hexit c := by
    rw [arrays_list, arrAt_0, arrAt_1, arrAt_2, arrAt_3,
      show StableHlo.held (c : Thread nD τ) (Pipeline.ucRefs τ sig) (V₂ m c) = unscopedBufs c (fun b => V₂ m c (Proc.devRef .tc b)) from (Pipeline.unscopedBufs_held c _).symm,
      unscopedBufs_list]
    rw [show V₂ m c (Proc.devRef .tc main_v2) = outN m c from Function.update_self ..,
      show V₂ m c (Proc.devRef .tc main_arg0) = V m c main_arg0 from Function.update_of_ne (StableHlo.devRef_ne_of_ne (by decide)) ..,
      show V₂ m c (Proc.devRef .tc main_arg1) = V m c main_arg1 from Function.update_of_ne (StableHlo.devRef_ne_of_ne (by decide)) ..,
      show V₂ m c (Proc.devRef .tc main_v0) = V m c main_v0 from Function.update_of_ne (StableHlo.devRef_ne_of_ne (by decide)) ..,
      show V₂ m c (Proc.devRef .tc main_v1) = V m c main_v1 from Function.update_of_ne (StableHlo.devRef_ne_of_ne (by decide)) ..,
      show V₂ m c (Proc.devRef .tc main_v3) = V m c main_v3 from Function.update_of_ne (StableHlo.devRef_ne_of_ne (by decide)) ..,
      show V₂ m c (Proc.devRef .tc main_cst) = V m c main_cst from Function.update_of_ne (StableHlo.devRef_ne_of_ne (by decide)) ..,
      show V₂ m c (Proc.devRef .tc main_v4) = V m c main_v4 from Function.update_of_ne (StableHlo.devRef_ne_of_ne (by decide)) ..]
    iintro ⟨⟨HaL, HaR, Hv0, Hv1, Hv2⟩, HO, -, ⟨Ha1, Hv3, Hcst, Hv4⟩⟩
    ihave Ha0 := (pointsTo_share (PosShare.mem_left_op_right fullShare)).2 $$ [HaL HaR]
    · isplitl [HaL] <;> iassumption
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv3]; · iexact Hv3
      isplitl [Hcst]; · iexact Hcst
      iexact Hv4
    · iapply (owesAt_elim m c _); iexact HO

/-- @main as the list of the three. -/
abbrev segs : List (Pipeline.Seg (pcfgs (F := F)) adm (dats m) () defs₀ 𝒱₀ L lv) := [.host (seg0 m), .region (reg0 m), .host (seg1 m)]

/-- The launch element: the pipeline library's, at the staging cells. -/
def u₀ : UR sig nD τ := initOf (Pipeline.cells (Pipeline.pin (pcfgs (F := F)) adm) cellOf_inj) (Pipeline.launchToks (Pipeline.pin (pcfgs (F := F)) adm) cellOf_inj)

/-- What the end state says: the result buffer at the final valuation's, the arguments as launched. -/
def QC : PUnit × MemSt nD τ sig (Elt F) → Prop := fun r =>
  ∀ c : Dev nD, r.2.mem ((c : Thread nD τ).loc main_v4) = V₃ m c (Proc.devRef .tc main_v4)
    ∧ r.2.mem ((c : Thread nD τ).loc main_arg0) = V₃ m c (Proc.devRef .tc main_arg0)
    ∧ r.2.mem ((c : Thread nD τ).loc main_arg1) = V₃ m c (Proc.devRef .tc main_arg1)

set_option backward.isDefEq.respectTransparency.types false in
/-- At the compiled mesh, for any float values, from any memory with zero counters: every weakly fair execution of
    @main terminates, nothing faulting, in a state whose result buffer and argument arrays are the final valuation's. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v4) = V₃ m c (Proc.devRef .tc main_v4)
      ∧ s.mem ((c : Thread nD τ).loc main_arg0) = V₃ m c (Proc.devRef .tc main_arg0)
      ∧ s.mem ((c : Thread nD τ).loc main_arg1) = V₃ m c (Proc.devRef .tc main_arg1))
    (hfin := fun c s' => by
      rw [show StableHlo.held (c : Thread nD τ) (Pipeline.ucRefs τ sig) (V₃ m c) = unscopedBufs c (fun b => V₃ m c (Proc.devRef .tc b)) from (Pipeline.unscopedBufs_held c _).symm,
        unscopedBufs_list]
      iintro ⟨⟨Ha0, Ha1, -, -, -, -, -, Hv4⟩, HSI⟩
      icombine HSI Ha0 gives %h0
      icombine HSI Ha1 gives %h1
      icombine HSI Hv4 gives %h4
      imodintro
      isplitr; · ipureintro; exact ⟨Buf.eq_of_forall_mem_univ h4, Buf.eq_of_forall_mem_univ h0, Buf.eq_of_forall_mem_univ h1⟩
      iexact HSI)
    (hQ := fun _ h => h)

end Cert.Kernel.Hand

end
-- ==== Proof.WResult.lean ====
/-
  The end of the run, read: the argument arrays are as launched, and the result buffer is the 1x1 result
  array divided by 2^26.
-/
import proofs.«180346_j15504831938685_1_alg».proof.Proof.WSegments
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- Neither the layout operations, nor the region, nor the final division write the row matrix. -/
theorem V₃_arg0 (c : Dev nD) : V₃ m c (Proc.devRef .tc main_arg0) = m ((c : Thread nD τ).loc main_arg0) := by
  show StableHlo.after hostOps1 (V₂ m c) (Proc.devRef .tc main_arg0) = _
  after_results
  rw [show V₂ m c (Proc.devRef .tc main_arg0) = V₁ m c (Proc.devRef .tc main_arg0) from Function.update_of_ne (StableHlo.devRef_ne_of_ne (by decide)) ..]
  show StableHlo.after hostOps0 (V₀ m c) (Proc.devRef .tc main_arg0) = _
  after_results

open Idealize.ShloMosaic.StableHlo in
/-- Nor the label vector. -/
theorem V₃_arg1 (c : Dev nD) : V₃ m c (Proc.devRef .tc main_arg1) = m ((c : Thread nD τ).loc main_arg1) := by
  show StableHlo.after hostOps1 (V₂ m c) (Proc.devRef .tc main_arg1) = _
  after_results
  rw [show V₂ m c (Proc.devRef .tc main_arg1) = V₁ m c (Proc.devRef .tc main_arg1) from Function.update_of_ne (StableHlo.devRef_ne_of_ne (by decide)) ..]
  show StableHlo.after hostOps0 (V₀ m c) (Proc.devRef .tc main_arg1) = _
  after_results

open Idealize.ShloMosaic.StableHlo in
/-- The result buffer: the 1x1 result array as a scalar, divided by the constant 2^26. -/
theorem V₃_v4 (c : Dev nD) : V₃ m c (Proc.devRef .tc main_v4)
    = Host.divf (shapeCast S_ (outN m c) shapeCasts_S1x1_S_) (constant S_ .f32 0x4C800000#32) := by
  show StableHlo.after hostOps1 (V₂ m c) (Proc.devRef .tc main_v4) = _
  after_results
  rw [show V₂ m c (Proc.devRef .tc main_v2) = outN m c from Function.update_self ..]
  rfl

/-- THE FRAME: every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V₃_arg0 m c), (h c).2.2.trans (V₃_arg1 m c)⟩) (run_main m ρ)

end Cert.Kernel.Hand

end
-- ==== Proof.Entry.lean ====
/-
  What the kernel region is entered with, and the vocabulary the two runs of its body share.

  @main first lays the label vector out twice (as a column and as a row), then runs the region over a
  16 x 16 grid, then divides the region's 1x1 result by 2^26.  The region's four input windows are blocks of
  the row matrix (twice: the rows of the point's first and of its second coordinate) and of the two label
  layouts; its one output window and its one scratch buffer are 1x1.  The body zeroes the scratch at the
  first grid point only, adds the point's block sum to it, and copies it to the output's staging buffer.
-/
import proofs.«180346_j15504831938685_1_alg».proof.Proof.Gen.KernelIdeal.Launch
import proofs.«180346_j15504831938685_1_alg».proof.Proof.Gen.KernelIdeal.Skeleton
import proofs.«180346_j15504831938685_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- after the two layout operations, when the region is entered; -/
abbrev V₁ (c : Dev nD) : Valuation τ sig (Elt F) := StableHlo.after hostOps0 (V₀ m c)
/-- and the same read at a TensorCore reference. -/
abbrev V (c : Dev nD) (b : Ref sig .tc) : Buf (Elt F) ((c : Thread nD τ).loc b) := V₁ m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one branch: is this the first grid point? -/

/-- The body zeroes its accumulator exactly when both grid coordinates are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Over the grid's 256 points in order: at the point numbered 0 only. -/
theorem isFirst_iff : ∀ t : Fin cfg0.N, isFirst (grid0.coords t) ↔ t.val = 0 :=
  (by decide +kernel : ∀ t : Fin grid0.N, isFirst (grid0.coords t) ↔ t.val = 0)

/-! ## The staging memrefs at a point, and the scratch -/

abbrev ms0 (t : Fin cfg0.N) : Memref sig .tc .vmem S512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The 1x1 accumulator the kernel keeps between grid points. -/
abbrev accM : Memref sig .tc .vmem S1x1 .f32 := Memref.whole cc0_scratch0
/-- Views through which the accumulator's and the output buffer's contents are stated. -/
abbrev accV : View sig .tc .vmem S1x1 .f32 := accM.view
abbrev outV : View sig .tc .vmem S1x1 .f32 := (Memref.whole cc0_stg4_0 : Memref sig .tc .vmem S1x1 .f32).view

end Cert.KernelIdeal.Hand

end
-- ==== Proof.PointFirst.lean ====
/-
  The body at the first grid point: it zeroes the accumulator, adds the point's block sum, and copies the
  accumulator to the output's staging buffer.
-/
import proofs.«180346_j15504831938685_1_alg».proof.Proof.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first grid point, on whole memrefs — the four inputs' at their contents, the output's and the
    accumulator's at anything — the body runs to a state holding the inputs' as they were and the output's buffer and
    the accumulator each with the listed stores written (the lists are what the run leaves: last store first). -/
noncomputable def runFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i)
    (x0 : Vec F S512x64 .f32) (x1 : Vec F S512x64 .f32) (x2 : Vec F S512x1 .i32) (x3 : Vec F S1x512 .i32) :
    Σ' (LO : List (View.Piece (Elt F) S1x1 .f32)), { LA : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Hand

end
-- ==== Proof.PointLater.lean ====
/-
  The body at a later grid point: it adds the point's block sum to the accumulator it finds, and copies the
  accumulator to the output's staging buffer.
-/
import proofs.«180346_j15504831938685_1_alg».proof.Proof.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a grid point after the first, on whole memrefs — the four inputs' at their contents, the accumulator's at
    what the point before left (`xs`), the output's at anything — the body runs to a state holding the inputs' as they were and the output's buffer and
    the accumulator each with the listed stores written (the lists are what the run leaves: last store first). -/
noncomputable def runLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i)
    (x0 : Vec F S512x64 .f32) (x1 : Vec F S512x64 .f32) (x2 : Vec F S512x1 .i32) (x3 : Vec F S1x512 .i32) (xs : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LA)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Hand

end
-- ==== Proof.Carried.lean ====
/-
  What the accumulator and the output's staging buffer hold after each grid point, the proof data of the
  pipeline, and the body obligation.

  After the first point both hold what the first run leaves; after point n + 1 what the later run leaves when it
  finds the accumulator of point n.  Between points the invariant is the accumulator at that value (before the
  first point: at anything).  The four input windows' buffers hold their blocks at every point, fetched there or
  not; the two windows on the row matrix each hold half of its share.
-/
import proofs.«180346_j15504831938685_1_alg».proof.Proof.PointFirst
import proofs.«180346_j15504831938685_1_alg».proof.Proof.PointLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, read back -/

theorem coverFirst_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) (y : S1x1.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S1x1.size (by sl_kernel_rfl) y
theorem coverFirst_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) (y : S1x1.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S1x1.size (by sl_kernel_rfl) y
/-- What the first point leaves in the output's staging buffer, -/
def outFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) : Vec F S1x1 .f32 :=
  outV.read (Elt F) (outV.writes (Elt F) outV.junk (runFirst c i arg2 harg2 arg3 harg3 arg4 harg4 arg5 harg5 arg6 harg6 arg7 harg7 hc x0 x1 x2 x3).1)
/-- and in the accumulator. -/
def accFirst (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) : Vec F S1x1 .f32 :=
  accV.read (Elt F) (accV.writes (Elt F) accV.junk (runFirst c i arg2 harg2 arg3 harg3 arg4 harg4 arg5 harg5 arg6 harg6 arg7 harg7 hc x0 x1 x2 x3).2.1)

theorem coverLater_out (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) (y : S1x1.Idx) :
    ∃ pc ∈ (runLater c i arg2 harg2 arg3 harg3 arg4 harg4 arg5 harg5 arg6 harg6 arg7 harg7 hc x0 x1 x2 x3 xs).1, y ∈ pc.1.set :=
  View.cover_of_tiledL (runLater c i arg2 harg2 arg3 harg3 arg4 harg4 arg5 harg5 arg6 harg6 arg7 harg7 hc x0 x1 x2 x3 xs).1 S1x1.size (by sl_kernel_rfl) y
theorem coverLater_acc (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) (y : S1x1.Idx) :
    ∃ pc ∈ (runLater c i arg2 harg2 arg3 harg3 arg4 harg4 arg5 harg5 arg6 harg6 arg7 harg7 hc x0 x1 x2 x3 xs).2.1, y ∈ pc.1.set :=
  View.cover_of_tiledL (runLater c i arg2 harg2 arg3 harg3 arg4 harg4 arg5 harg5 arg6 harg6 arg7 harg7 hc x0 x1 x2 x3 xs).2.1 S1x1.size (by sl_kernel_rfl) y
/-- What a later point leaves in the output's staging buffer, having found the accumulator at `xs`, -/
def outLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) : Vec F S1x1 .f32 :=
  outV.read (Elt F) (outV.writes (Elt F) outV.junk (runLater c i arg2 harg2 arg3 harg3 arg4 harg4 arg5 harg5 arg6 harg6 arg7 harg7 hc x0 x1 x2 x3 xs).1)
/-- and in the accumulator. -/
def accLater (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) : Vec F S1x1 .f32 :=
  accV.read (Elt F) (accV.writes (Elt F) accV.junk (runLater c i arg2 harg2 arg3 harg3 arg4 harg4 arg5 harg5 arg6 harg6 arg7 harg7 hc x0 x1 x2 x3 xs).2.1)

/-! ## Point by point -/

/-- The output's staging buffer and the accumulator after the body at position `n`. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (iblk m c 0 ⟨0, hn⟩) (iblk m c 1 ⟨0, hn⟩) (iblk m c 2 ⟨0, hn⟩) (iblk m c 3 ⟨0, hn⟩),
      accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (iblk m c 0 ⟨0, hn⟩) (iblk m c 1 ⟨0, hn⟩) (iblk m c 2 ⟨0, hn⟩) (iblk m c 3 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
      accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_first (c : Dev nD) (t : Fin cfg0.N) (hz : t.val = 0) :
    outsAt m c t.val t.isLt = (outFirst c (grid0.coords t) (ms0 t) (hs0 t) (ms1 t) (hs1 t) (ms2 t) (hs2 t) (ms3 t) (hs3 t) (ms4 t) (hs4 t) accM (Memref.isWhole_whole _) ((isFirst_iff t).mpr hz) (iblk m c 0 t) (iblk m c 1 t) (iblk m c 2 t) (iblk m c 3 t),
      accFirst c (grid0.coords t) (ms0 t) (hs0 t) (ms1 t) (hs1 t) (ms2 t) (hs2 t) (ms3 t) (hs3 t) (ms4 t) (hs4 t) accM (Memref.isWhole_whole _) ((isFirst_iff t).mpr hz) (iblk m c 0 t) (iblk m c 1 t) (iblk m c 2 t) (iblk m c 3 t)) := by
  obtain ⟨n, hn⟩ := t
  cases n with
  | zero => rfl
  | succ n => exact absurd hz (Nat.succ_ne_zero n)

theorem outsAt_later (c : Dev nD) (t : Fin cfg0.N) (hz : t.val ≠ 0) :
    outsAt m c t.val t.isLt = (outLater c (grid0.coords t) (ms0 t) (hs0 t) (ms1 t) (hs1 t) (ms2 t) (hs2 t) (ms3 t) (hs3 t) (ms4 t) (hs4 t) accM (Memref.isWhole_whole _) (fun h => hz ((isFirst_iff t).mp h)) (iblk m c 0 t) (iblk m c 1 t) (iblk m c 2 t) (iblk m c 3 t) (outsAt m c (t.val - 1) (Nat.lt_of_le_of_lt (Nat.sub_le _ _) t.isLt)).2,
      accLater c (grid0.coords t) (ms0 t) (hs0 t) (ms1 t) (hs1 t) (ms2 t) (hs2 t) (ms3 t) (hs3 t) (ms4 t) (hs4 t) accM (Memref.isWhole_whole _) (fun h => hz ((isFirst_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl hz
  | succ n => rfl

/-! ## The invariant between points -/

/-- The region's scoped buffers that no window stages are the accumulator alone. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- Before position `n`: the accumulator at anything (`n = 0`), else at what the point before left. -/
def PhiS (c : Dev nD) : (n : ℕ) → n ≤ cfg0.N → sProp 𝕄
  | 0, _ => Pipeline.scopedRest spec0 c
  | n + 1, hn => owns (c : Thread nD τ) accM fullShare ((outsAt m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) accM fullShare ((outsAt m c n hn).2) := rfl
theorem PhiS_pos (c : Dev nD) (n : ℕ) (h : n ≤ cfg0.N) (hz : n ≠ 0) :
    PhiS m c n h = owns (c : Thread nD τ) accM fullShare ((outsAt m c (n - 1) (by omega)).2) := by
  cases n with
  | zero => exact absurd rfl hz
  | succ n => rfl

/-! ## The proof data -/

/-- On core `c`: the arrays as the region finds them; after the body each input's buffer at its block, the
    output's at `outsAt`; the invariant `PhiS`; the row matrix's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (ms0 t) fullShare (iblk m c 0 t) := by
  rw [← after_0]
theorem leaves_1 (c : Dev nD) (t : Fin cfg0.N) : (dats m 0 c).leavesExact 1 t = owns (c : Thread nD τ) (ms1 t) fullShare (iblk m c 1 t) := by
  rw [← after_1]
theorem leaves_2 (c : Dev nD) (t : Fin cfg0.N) : (dats m 0 c).leavesExact 2 t = owns (c : Thread nD τ) (ms2 t) fullShare (iblk m c 2 t) := by
  rw [← after_2]
theorem leaves_3 (c : Dev nD) (t : Fin cfg0.N) : (dats m 0 c).leavesExact 3 t = owns (c : Thread nD τ) (ms3 t) fullShare (iblk m c 3 t) := by
  rw [← after_3]
theorem leaves_4 (c : Dev nD) (t : Fin cfg0.N) : (dats m 0 c).leavesExact 4 t = owns (c : Thread nD τ) (ms4 t) fullShare ((outsAt m c t.val t.isLt).1) := by
  rw [← after_4]

set_option maxHeartbeats 4800000 in
/-- The body at any point: the inputs' buffers hold their blocks; at the first point the first run applies, the
    accumulator handed over at anything; at a later point the later run, the accumulator at what the point before left;
    either way the accumulator and the output's buffer are taken back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  by_cases hz : t.val = 0
  · rw [outsAt_first m c t hz]
    unfold outFirst accFirst; (try dsimp only)
    rw [PhiS_castSucc m c t, PhiS_zero m c _ _ hz, scopedRest_acc]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverFirst_acc c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst_out c _ _ _ _ _ _ _ _ _ _ _ _ _ _ _ _ _ _)
  · rw [outsAt_later m c t hz]
    unfold outLater accLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverLater_acc c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Segments.lean ====
/-
  The launch: @main as the layout operations, the kernel region, and the final division.

  The two layout operations run over the unscoped buffers held whole.  The region takes the row matrix (half
  of its share to each of the two windows reading it), the two label layouts and the 1x1 result as its windows'
  arrays; the label vector and the buffers of the final division bypass it.  It gives the row matrix back whole
  and unchanged and the result at what the last grid point wrote.  The final reshape and division then run over
  the unscoped buffers again.  At the end the result buffer holds the quotient of the accumulated sum, and the two
  argument arrays hold what they held at launch.
-/
import proofs.«180346_j15504831938685_1_alg».proof.Proof.Carried

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's own. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core's `owes`. -/
abbrev R (c : Dev nD) : sProp 𝕄 := iprop(∃ W, owes (c : Thread nD τ) (0 : CellTallies nD τ sig Unit) W)

/-! ## The unscoped buffers and the windows' arrays, one by one -/

omit [FloatOps F] in
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_cst) ↦{fullShare} W main_cst) ∗ (((c : Thread nD τ).loc main_v4) ↦{fullShare} W main_v4)) := by
  unfold unscopedBufs
  exact bigSep_eq_bigSepL_of_eq [main_arg0, main_arg1, main_v0, main_v1, main_v2, main_v3, main_cst, main_v4] (by decide) (by decide) _

/-- The pipeline's arrays: the row matrix twice, at the two halves of its share; the label layouts and the result whole. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0]
  rw [(arr_whole0 0).set_eq_univ, (arr_whole0 2).set_eq_univ, (arr_whole0 3).set_eq_univ, (arr_whole0 4).set_eq_univ]
  rfl

/-! ## The three segments -/

/-- The result array after the region: what the last grid point's write-back leaves. -/
abbrev outN (c : Dev nD) : Buf (Elt F) ((c : Thread nD τ).loc main_v2) := (dats m 0 c).arrAt 4 cfg0.N
/-- The buffers after the region: the result array written, the others as the region found them. -/
abbrev V₂ (c : Dev nD) : Valuation τ sig (Elt F) := Function.update (V₁ m c) (Proc.devRef .tc main_v2) (outN m c)
/-- The buffers at the end: after the reshape and the division. -/
abbrev V₃ (c : Dev nD) : Valuation τ sig (Elt F) := StableHlo.after hostOps1 (V₂ m c)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The layout operations, over the unscoped buffers at their launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- The reshape and the division, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (V₂ m) R

theorem Phi_last (c : Dev nD) : (dats m 0 c).Φ (Fin.last cfg0.N) ⊢ (iprop(∃ d, owns (c : Thread nD τ) accM fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega)]
  iintro HS; iexists _; iexact HS

theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  iintro ⟨%W, -, HO⟩; iexists W; iexact HO

/-- An input window's array is never written. -/
theorem arrAt_0 (c : Dev nD) (n : ℕ) : (dats m 0 c).arrAt 0 n = V m c main_arg0 := ((dats m 0 c).arrAt_in 0 rfl n).trans (A_eq m c 0)
theorem arrAt_1 (c : Dev nD) (n : ℕ) : (dats m 0 c).arrAt 1 n = V m c main_arg0 := ((dats m 0 c).arrAt_in 1 rfl n).trans (A_eq m c 1)
theorem arrAt_2 (c : Dev nD) (n : ℕ) : (dats m 0 c).arrAt 2 n = V m c main_v0 := ((dats m 0 c).arrAt_in 2 rfl n).trans (A_eq m c 2)
theorem arrAt_3 (c : Dev nD) (n : ℕ) : (dats m 0 c).arrAt 3 n = V m c main_v1 := ((dats m 0 c).arrAt_in 3 rfl n).trans (A_eq m c 3)

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₂ m c) ∗ R c)
  X _ := iprop(emp)
  Y _ := iprop(emp)
  Z c := iprop((((c : Thread nD τ).loc main_arg1) ↦{fullShare} V m c main_arg1) ∗ (((c : Thread nD τ).loc main_v3) ↦{fullShare} V m c main_v3)
          ∗ (((c : Thread nD τ).loc main_cst) ↦{fullShare} V m c main_cst) ∗ (((c : Thread nD τ).loc main_v4) ↦{fullShare} V m c main_v4))
  hentry c := by
    rw [show StableHlo.held (c : Thread nD τ) (Pipeline.ucRefs τ sig) (StableHlo.after hostOps0 (V₀ m c)) = unscopedBufs c (V m c) from (Pipeline.unscopedBufs_held c _).symm,
      unscopedBufs_list, arrays_list]
    iintro ⟨⟨⟨Ha0, Ha1, Hv0, Hv1, Hv2, Hv3, Hcst, Hv4⟩, HO⟩, -, -⟩
    ihave Ha0 := (pointsTo_share (PosShare.mem_left_op_right fullShare)).1 $$ Ha0
    icases Ha0 with ⟨HaL, HaR⟩
    imodintro
    isplitl [HaL HaR Hv0 Hv1 Hv2]
    · isplitl [HaL]; · iexact HaL
      isplitl [HaR]; · iexact HaR
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]; · iapply (owesAt_intro m c 0); iexact HO
    isplitr; · iempintro
    isplitl [Ha1]; · iexact Ha1
    isplitl [Hv3]; · iexact Hv3
    isplitl [Hcst]; · iexact Hcst
    iexact Hv4
  hin c := by
    rw [show (dats m 0 c).Φ 0 = Pipeline.scopedRest spec0 c from rfl]
    iintro ⟨-, -, Hr⟩; iexact Hr
  hout c := by
    rw [Pipeline.ownSems0_none, scopedRest_acc]
    iintro H
    ihave H := (Phi_last m c) $$ H
    isplitr; · iempintro
    isplitr; · iempintro
    iexact H
  hexit c := by
    rw [arrays_list, arrAt_0, arrAt_1, arrAt_2, arrAt_3,
      show StableHlo.held (c : Thread nD τ) (Pipeline.ucRefs τ sig) (V₂ m c) = unscopedBufs c (fun b => V₂ m c (Proc.devRef .tc b)) from (Pipeline.unscopedBufs_held c _).symm,
      unscopedBufs_list]
    rw [show V₂ m c (Proc.devRef .tc main_v2) = outN m c from Function.update_self ..,
      show V₂ m c (Proc.devRef .tc main_arg0) = V m c main_arg0 from Function.update_of_ne (StableHlo.devRef_ne_of_ne (by decide)) ..,
      show V₂ m c (Proc.devRef .tc main_arg1) = V m c main_arg1 from Function.update_of_ne (StableHlo.devRef_ne_of_ne (by decide)) ..,
      show V₂ m c (Proc.devRef .tc main_v0) = V m c main_v0 from Function.update_of_ne (StableHlo.devRef_ne_of_ne (by decide)) ..,
      show V₂ m c (Proc.devRef .tc main_v1) = V m c main_v1 from Function.update_of_ne (StableHlo.devRef_ne_of_ne (by decide)) ..,
      show V₂ m c (Proc.devRef .tc main_v3) = V m c main_v3 from Function.update_of_ne (StableHlo.devRef_ne_of_ne (by decide)) ..,
      show V₂ m c (Proc.devRef .tc main_cst) = V m c main_cst from Function.update_of_ne (StableHlo.devRef_ne_of_ne (by decide)) ..,
      show V₂ m c (Proc.devRef .tc main_v4) = V m c main_v4 from Function.update_of_ne (StableHlo.devRef_ne_of_ne (by decide)) ..]
    iintro ⟨⟨HaL, HaR, Hv0, Hv1, Hv2⟩, HO, -, ⟨Ha1, Hv3, Hcst, Hv4⟩⟩
    ihave Ha0 := (pointsTo_share (PosShare.mem_left_op_right fullShare)).2 $$ [HaL HaR]
    · isplitl [HaL] <;> iassumption
    imodintro
    isplitr [HO]
    · isplitl [Ha0]; · iexact Ha0
      isplitl [Ha1]; · iexact Ha1
      isplitl [Hv0]; · iexact Hv0
      isplitl [Hv1]; · iexact Hv1
      isplitl [Hv2]; · iexact Hv2
      isplitl [Hv3]; · iexact Hv3
      isplitl [Hcst]; · iexact Hcst
      iexact Hv4
    · iapply (owesAt_elim m c _); iexact HO

/-- @main as the list of the three. -/
abbrev segs : List (Pipeline.Seg (pcfgs (F := F)) adm (dats m) () defs₀ 𝒱₀ L lv) := [.host (seg0 m), .region (reg0 m), .host (seg1 m)]

/-- The launch element: the pipeline library's, at the staging cells. -/
def u₀ : UR sig nD τ := initOf (Pipeline.cells (Pipeline.pin (pcfgs (F := F)) adm) cellOf_inj) (Pipeline.launchToks (Pipeline.pin (pcfgs (F := F)) adm) cellOf_inj)

/-- What the end state says: the result buffer at the final valuation's, the arguments as launched. -/
def QC : PUnit × MemSt nD τ sig (Elt F) → Prop := fun r =>
  ∀ c : Dev nD, r.2.mem ((c : Thread nD τ).loc main_v4) = V₃ m c (Proc.devRef .tc main_v4)
    ∧ r.2.mem ((c : Thread nD τ).loc main_arg0) = V₃ m c (Proc.devRef .tc main_arg0)
    ∧ r.2.mem ((c : Thread nD τ).loc main_arg1) = V₃ m c (Proc.devRef .tc main_arg1)

set_option backward.isDefEq.respectTransparency.types false in
/-- At the compiled mesh, for any float values, from any memory with zero counters: every weakly fair execution of
    @main terminates, nothing faulting, in a state whose result buffer and argument arrays are the final valuation's. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v4) = V₃ m c (Proc.devRef .tc main_v4)
      ∧ s.mem ((c : Thread nD τ).loc main_arg0) = V₃ m c (Proc.devRef .tc main_arg0)
      ∧ s.mem ((c : Thread nD τ).loc main_arg1) = V₃ m c (Proc.devRef .tc main_arg1))
    (hfin := fun c s' => by
      rw [show StableHlo.held (c : Thread nD τ) (Pipeline.ucRefs τ sig) (V₃ m c) = unscopedBufs c (fun b => V₃ m c (Proc.devRef .tc b)) from (Pipeline.unscopedBufs_held c _).symm,
        unscopedBufs_list]
      iintro ⟨⟨Ha0, Ha1, -, -, -, -, -, Hv4⟩, HSI⟩
      icombine HSI Ha0 gives %h0
      icombine HSI Ha1 gives %h1
      icombine HSI Hv4 gives %h4
      imodintro
      isplitr; · ipureintro; exact ⟨Buf.eq_of_forall_mem_univ h4, Buf.eq_of_forall_mem_univ h0, Buf.eq_of_forall_mem_univ h1⟩
      iexact HSI)
    (hQ := fun _ h => h)

end Cert.KernelIdeal.Hand

end
-- ==== Proof.Result.lean ====
/-
  The end of the run, read: the argument arrays are as launched, and the result buffer is the 1x1 result
  array divided by 2^26.
-/
import proofs.«180346_j15504831938685_1_alg».proof.Proof.Segments
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- Neither the layout operations, nor the region, nor the final division write the row matrix. -/
theorem V₃_arg0 (c : Dev nD) : V₃ m c (Proc.devRef .tc main_arg0) = m ((c : Thread nD τ).loc main_arg0) := by
  show StableHlo.after hostOps1 (V₂ m c) (Proc.devRef .tc main_arg0) = _
  after_results
  rw [show V₂ m c (Proc.devRef .tc main_arg0) = V₁ m c (Proc.devRef .tc main_arg0) from Function.update_of_ne (StableHlo.devRef_ne_of_ne (by decide)) ..]
  show StableHlo.after hostOps0 (V₀ m c) (Proc.devRef .tc main_arg0) = _
  after_results

open Idealize.ShloMosaic.StableHlo in
/-- Nor the label vector. -/
theorem V₃_arg1 (c : Dev nD) : V₃ m c (Proc.devRef .tc main_arg1) = m ((c : Thread nD τ).loc main_arg1) := by
  show StableHlo.after hostOps1 (V₂ m c) (Proc.devRef .tc main_arg1) = _
  after_results
  rw [show V₂ m c (Proc.devRef .tc main_arg1) = V₁ m c (Proc.devRef .tc main_arg1) from Function.update_of_ne (StableHlo.devRef_ne_of_ne (by decide)) ..]
  show StableHlo.after hostOps0 (V₀ m c) (Proc.devRef .tc main_arg1) = _
  after_results

open Idealize.ShloMosaic.StableHlo in
/-- The result buffer: the 1x1 result array as a scalar, divided by the constant 2^26. -/
theorem V₃_v4 (c : Dev nD) : V₃ m c (Proc.devRef .tc main_v4)
    = Host.divf (shapeCast S_ (outN m c) shapeCasts_S1x1_S_) (constant S_ .f32 0x4C800000#32) := by
  show StableHlo.after hostOps1 (V₂ m c) (Proc.devRef .tc main_v4) = _
  after_results
  rw [show V₂ m c (Proc.devRef .tc main_v2) = outN m c from Function.update_self ..]
  rfl

/-- THE FRAME: every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V₃_arg0 m c), (h c).2.2.trans (V₃_arg1 m c)⟩) (run_main m ρ)

end Cert.KernelIdeal.Hand

end
-- ==== Proof.LastBlock.lean ====
/-
  The result array after the region: the output window is written back once, after the last grid point, and
  its one block is the whole 1x1 array; so the array ends holding what the body left in the output's staging
  buffer at the last point.
-/
import proofs.«180346_j15504831938685_1_alg».proof.Proof.Segments
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lastLt : 255 < cfg0.N := by rw [show cfg0.N = 256 from N_0]; decide
/-- The last grid point. -/
abbrev tLast : Fin cfg0.N := ⟨255, lastLt⟩

/-- The output window's one block is the whole 1x1 array, at every grid point. -/
theorem out_idx : ∀ t : Fin cfg0.N, (win0_4.index t 0 * win0_4.size 0 = 0 ∧ win0_4.xsize (grid0.coords t) 0 = 1)
      ∧ (win0_4.index t 1 * win0_4.size 1 = 0 ∧ win0_4.xsize (grid0.coords t) 1 = 1) :=
  (by decide +kernel : ∀ t : Fin grid0.N, (win0_4.index t 0 * win0_4.size 0 = 0 ∧ win0_4.xsize (grid0.coords t) 0 = 1)
      ∧ (win0_4.index t 1 * win0_4.size 1 = 0 ∧ win0_4.xsize (grid0.coords t) 1 = 1))

/-- Reading the 1x1 array through the block of any grid point is reading the array. -/
theorem cut_eq_read (c : Dev nD) (t : Fin cfg0.N) (G : Buf (Elt F) ((c : Thread nD τ).loc main_v2)) :
    (cfg0.win 4).cut (grid0.coords t) G = ((cfg0.win 4).blk t).view.read (Elt F) G := by
  have hz' : (fun a => win0_4.index t a * main_v2.ty.shape.size a) = fun _ => 0 := funext fun a => by
    match a with
    | ⟨0, _⟩ => exact (out_idx t).1.1
    | ⟨1, _⟩ => exact (out_idx t).2.1
  exact (Memref.read_access_unit_zero (Elt F) main_v2 hz' (fun a => by rw [congrFun hz' a]; simp) G).symm

/-- So the result array ends holding what the body left in the output's staging buffer at the last point. -/
theorem outN_of (c : Dev nD) (G : Buf (Elt F) ((c : Thread nD τ).loc main_v2)) (hG : (dats m 0 c).after 4 tLast = G) :
    outN m c = G :=
  (dats m 0 c).arrAt_eq_of_cover 4 G
    (fun t hf => by
      have hN : cfg0.N = 256 := N_0
      have h3 : t.val = 255 := by have := (flush0_4 t).mp hf; have := t.isLt; omega
      obtain rfl : t = tLast := Fin.ext h3
      show (cfg0.win 4).cut (grid0.coords tLast) ((dats m 0 c).after 4 tLast) = _
      rw [hG]
      exact cut_eq_read c tLast G)
    fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [(out_idx tLast).1.1, (out_idx tLast).1.2]; omega
      | ⟨1, _⟩ => show win0_4.index tLast 1 * win0_4.size 1 ≤ (i 1 : Nat) ∧ (i 1 : Nat) < win0_4.index tLast 1 * win0_4.size 1 + win0_4.xsize (grid0.coords tLast) 1
                  rw [(out_idx tLast).2.1, (out_idx tLast).2.2]; omega⟩

end Cert.KernelIdeal.Hand

end
-- ==== Proof.Blocks.lean ====
/-
  One grid point of the kernel, as pure functions of what the body loads.

  At grid point (i, j) the body loads a 512x64 block of rows `x0` (rows 512 i …), a second 512x64 block `x1`
  (rows 512 j …), the labels of the first block's rows as a column `c2` and those of the second block's rows as a
  row `c3`.  `lossBlk` is the 512x512 block of pairwise losses it computes from them,
      t · (1 − cos) + (1 − t) · max(1.1 − (1 − cos), 0),
  with cos the inner product of the two normalised rows and t the indicator that the two labels agree.
  `step` adds the sum of that block (each row summed along its lanes, then the 512 row sums added up) to the
  1x1 accumulator it found.
-/
import proofs.«180346_j15504831938685_1_alg».proof.Proof.Gen.KernelIdeal.Skeleton

noncomputable section

namespace Cert.KernelIdeal.Blocks

open Idealize.ShloMosaic Cert.KernelIdeal Cert.KernelIdeal.Gen

variable {F : FTy → Type} [FloatOps F]

/-- The block of pairwise losses of one grid point. -/
def lossBlk (x0 x1 : Vec F S512x64 .f32) (c2 : Vec F S512x1 .i32) (c3 : Vec F S1x512 .i32) : FVec F S512x512 .f32 :=
  addf (k0_pay5 x0 x1 c2 c3)
    (mulf (subf (broadcast S512x512 (Scalar.ofBits .f32 0x3F800000#32)) (k0_pay4 c2 c3))
      (maximumf (subf (broadcast S512x512 (Scalar.ofBits .f32 0x3F8CCCCD#32)) (k0_pay3 x0 x1))
        (broadcast S512x512 (Scalar.ofBits .f32 0x00000000#32))))

/-- The sum of a 512x512 block as the body takes it: along the lanes, then over the rows, as a 1x1 vector. -/
def blkSum (v : FVec F S512x512 .f32) : FVec F S1x1 .f32 :=
  shapeCast S1x1 (multiReduction .add [0] S1
    (shapeCast S512x1 (multiReduction .add [1] S512 v 0x00000000#32 reduces_S512x512_S512 (.inl rfl) rfl) shapeCasts_S512_S512x1)
    0x00000000#32 reduces_S512x1_S1 (.inl rfl) rfl) shapeCasts_S1_S1x1

/-- The accumulator after a grid point, from the four blocks loaded there and the accumulator found. -/
def step (x0 x1 : Vec F S512x64 .f32) (c2 : Vec F S512x1 .i32) (c3 : Vec F S1x512 .i32) (acc : Vec F S1x1 .f32) : FVec F S1x1 .f32 :=
  k0_pay1 (k0_pay3 x0 x1) (k0_pay4 c2 c3) (k0_pay5 x0 x1 c2 c3) (Scalar.ofBits .f32 0x3F800000#32) acc

/-- `step` is the accumulator found plus the block's sum. -/
theorem step_eq (x0 x1 : Vec F S512x64 .f32) (c2 : Vec F S512x1 .i32) (c3 : Vec F S1x512 .i32) (acc : Vec F S1x1 .f32) :
    step x0 x1 c2 c3 acc = shapeCast S1x1 (addf acc (blkSum (lossBlk x0 x1 c2 c3))) shapeCasts_S1x1_S1x1 := rfl

end Cert.KernelIdeal.Blocks

end
-- ==== Proof.Pieces.lean ====
/-
  What each run of the body leaves in the accumulator and in the output's staging buffer, as a value.

  Every store and load the body makes of the two 1x1 buffers is of the whole buffer, at the origin, so a list of
  such stores leaves its last payload, and a whole load after them reads it.  At the first grid point the body stores
  the zero vector into the accumulator, reads it back, stores one step from it, reads that back and stores it into
  the output's buffer; at a later point it does the same from the accumulator it finds.  Both buffers therefore end
  at one step (`Blocks.step`) from the zero vector, respectively from the accumulator found.  The four input blocks
  are read whole from whole buffers, so the step is of the blocks themselves.  Nothing here depends on the float
  instance.
-/
import proofs.«180346_j15504831938685_1_alg».proof.Proof.Carried
import proofs.«180346_j15504831938685_1_alg».proof.Proof.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin every whole-buffer store and load of the body is made at. -/
theorem origin_zero : (![0, 0] : Fin 2 → Nat) = fun _ => 0 := funext fun a => by fin_cases a <;> rfl

/-- The first point leaves in the accumulator one step from the zero vector: it stores the zero vector whole, reads it
    back, and stores the step's result whole over it. -/
theorem accFirst_eq (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) :
    accFirst c i arg2 harg2 arg3 harg3 arg4 harg4 arg5 harg5 arg6 harg6 arg7 harg7 hc x0 x1 x2 x3 = Blocks.step x0 x1 x2 x3 (Gen.k0_pay2 (F := F)) := by
  unfold accFirst
  rw [View.read_writes_junk_eq_canon]
  unfold runFirst
  dsimp only
  sl_unfold_words
  rw [View.canon_cons_unit_zero (S := S1x1) origin_zero, View.readCov_unit_zero (S := S1x1) _ origin_zero]
  simp only [View.readAt_eq_ld, harg2.read_unread, harg3.read_unread, harg4.read_unread, harg5.read_unread,
    View.ld_unit_zero (S := S512x64) origin_zero, View.ld_unit_zero (S := S512x1) origin_zero, View.ld_unit_zero (S := S1x512) origin_zero]
  rfl

/-- The first point leaves the same in the output's staging buffer: the accumulator read back whole and stored whole. -/
theorem outFirst_eq (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : isFirst i) (x0 : Vec F S512x64 .f32) (x1 : Vec F S512x64 .f32) (x2 : Vec F S512x1 .i32) (x3 : Vec F S1x512 .i32) :
    outFirst c i arg2 harg2 arg3 harg3 arg4 harg4 arg5 harg5 arg6 harg6 arg7 harg7 hc x0 x1 x2 x3 = Blocks.step x0 x1 x2 x3 (Gen.k0_pay2 (F := F)) := by
  unfold outFirst
  rw [View.read_writes_junk_eq_canon]
  unfold runFirst
  dsimp only
  sl_unfold_words
  rw [View.canon_unit_zero (S := S1x1) origin_zero, View.readCov_cons_toLoadRect, View.readCov_unit_zero (S := S1x1) _ origin_zero]
  simp only [View.readAt_eq_ld, harg2.read_unread, harg3.read_unread, harg4.read_unread, harg5.read_unread,
    View.ld_unit_zero (S := S512x64) origin_zero, View.ld_unit_zero (S := S512x1) origin_zero, View.ld_unit_zero (S := S1x512) origin_zero]
  rfl

/-- A later point leaves in the accumulator one step from what it found there: it reads the accumulator whole and stores
    the step's result whole over it. -/
theorem accLater_eq (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) :
    accLater c i arg2 harg2 arg3 harg3 arg4 harg4 arg5 harg5 arg6 harg6 arg7 harg7 hc x0 x1 x2 x3 xs = Blocks.step x0 x1 x2 x3 xs := by
  unfold accLater
  rw [View.read_writes_junk_eq_canon]
  unfold runLater
  dsimp only
  sl_unfold_words
  rw [View.canon_unit_zero (S := S1x1) origin_zero]
  simp only [View.readAt_eq_ld, harg2.read_unread, harg3.read_unread, harg4.read_unread, harg5.read_unread, harg7.read_unread,
    View.ld_unit_zero (S := S512x64) origin_zero, View.ld_unit_zero (S := S512x1) origin_zero, View.ld_unit_zero (S := S1x512) origin_zero,
    View.ld_unit_zero (S := S1x1) origin_zero]
  rfl

/-- A later point leaves the same in the output's staging buffer: the accumulator read back whole and stored whole. -/
theorem outLater_eq (c : Dev nD) (i : grid0.Coords) (arg2 : Memref sig .tc .vmem S512x64 .f32) (harg2 : arg2.IsWhole) (arg3 : Memref sig .tc .vmem S512x64 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬isFirst i) (x0 : Vec F S512x64 .f32) (x1 : Vec F S512x64 .f32) (x2 : Vec F S512x1 .i32) (x3 : Vec F S1x512 .i32) (xs : Vec F S1x1 .f32) :
    outLater c i arg2 harg2 arg3 harg3 arg4 harg4 arg5 harg5 arg6 harg6 arg7 harg7 hc x0 x1 x2 x3 xs = Blocks.step x0 x1 x2 x3 xs := by
  unfold outLater
  rw [View.read_writes_junk_eq_canon]
  unfold runLater
  dsimp only
  sl_unfold_words
  rw [View.canon_unit_zero (S := S1x1) origin_zero, View.readCov_unit_zero (S := S1x1) _ origin_zero]
  simp only [View.readAt_eq_ld, harg2.read_unread, harg3.read_unread, harg4.read_unread, harg5.read_unread, harg7.read_unread,
    View.ld_unit_zero (S := S512x64) origin_zero, View.ld_unit_zero (S := S512x1) origin_zero, View.ld_unit_zero (S := S1x512) origin_zero,
    View.ld_unit_zero (S := S1x1) origin_zero]
  rfl

end Cert.KernelIdeal.Hand

end
-- ==== Proof.BlockSums.lean ====
/-
  The sum of one 512 x 512 block, and one step of the accumulation, read at the extended reals.

  The body sums a block in two stages: each row along its 512 lanes, giving a vector of 512 row sums, which it views
  as a 512 x 1 column and sums over its rows into a one-element vector, viewed as 1 x 1.  At the extended reals each
  stage is a finite sum from the zero word's value, which is 0, so the block's sum at the one index of the 1 x 1
  result is the double sum over the rows and the lanes (`blkSum_apply`), and a step of the accumulation adds the
  double sum of the block of losses to the accumulator found (`step_apply`).
-/
import proofs.«180346_j15504831938685_1_alg».proof.Proof.Blocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockSums

open Idealize.ShloMosaic Idealize.ShloMosaic.ValueIdx Cert.KernelIdeal Cert.KernelIdeal.Gen

/-- An `[n]` vector viewed as an `[n, 1]` column reads, at `(r, u)`, the vector at `r`. -/
theorem shapeCast_a_a1_apply {α : Type} {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the lanes: at row `j`, the sum of that row's 512 elements. -/
theorem rowSum_apply (v : FVec Ideal S512x512 .f32) (j : S512.Idx) :
    multiReduction (F := Ideal) .add [1] S512 v 0x00000000#32 reduces_S512x512_S512 (.inl rfl) rfl j
      = ∑ c : Fin 512, v (ix2 (j 0) c) := by
  refine (Ideal.multiReduction_add_single v _ reduces_S512x512_S512 (.inl rfl) rfl j).trans ?_
  refine Finset.sum_congr rfl fun c _ => congrArg v (funext fun a => Fin.ext ?_)
  match a with
  | ⟨0, _⟩ => rfl
  | ⟨1, _⟩ => rfl

/-- The sum over the rows of a 512 x 1 column: at the one index, the sum of its 512 elements. -/
theorem colSum_apply (w : FVec Ideal S512x1 .f32) (j : S1.Idx) :
    multiReduction (F := Ideal) .add [0] S1 w 0x00000000#32 reduces_S512x1_S1 (.inl rfl) rfl j
      = ∑ r : Fin 512, w (ix2 r (j 0)) := by
  refine (Ideal.multiReduction_add_single w _ reduces_S512x1_S1 (.inl rfl) rfl j).trans ?_
  refine Finset.sum_congr rfl fun r _ => congrArg w (funext fun a => Fin.ext ?_)
  match a with
  | ⟨0, _⟩ => rfl
  | ⟨1, _⟩ => rfl

/-- The block's sum as the body takes it is the double sum over its rows and lanes. -/
theorem blkSum_apply (v : FVec Ideal S512x512 .f32) (i : S1x1.Idx) :
    Blocks.blkSum (F := Ideal) v i = ∑ r : Fin 512, ∑ c : Fin 512, v (ix2 r c) := by
  obtain ⟨a, b, rfl⟩ : ∃ a b, i = ix2 a b := ⟨i 0, i 1, eq_ix2 i⟩
  unfold Blocks.blkSum
  rw [shapeCast_a_1a_apply, colSum_apply]
  refine Finset.sum_congr rfl fun r _ => ?_
  rw [shapeCast_a_a1_apply, rowSum_apply]

/-- One step of the accumulation: the accumulator found plus the double sum of the block of losses. -/
theorem step_apply (x0 x1 : Vec Ideal S512x64 .f32) (c2 : Vec Ideal S512x1 .i32) (c3 : Vec Ideal S1x512 .i32)
    (acc : Vec Ideal S1x1 .f32) (i : S1x1.Idx) :
    Blocks.step (F := Ideal) x0 x1 c2 c3 acc i
      = acc i + ∑ r : Fin 512, ∑ c : Fin 512, Blocks.lossBlk (F := Ideal) x0 x1 c2 c3 (ix2 r c) := by
  rw [Blocks.step_eq, shapeCast_self, addf_apply, blkSum_apply]

end Cert.KernelIdeal.BlockSums

end
-- ==== Proof.Chain.lean ====
/-
  The accumulator over the grid points, as a chain of steps and, at the extended reals, as a sum.

  The body's two runs each leave one step from the accumulator they start from (the zero vector at the first point),
  so after point n both the accumulator and the output's staging buffer hold the n-fold chain of steps `acc`, each
  step over the four blocks of that point (`outsAt_eq`, by induction on the point).  At the extended reals the zero
  vector reads 0 and a step adds the double sum of its block of losses, so the chain after point n reads the sum
  over the points up to n of those double sums (`acc_apply`), and after the last of the 256 points the sum over all
  of them (`acc_last`).
-/
import proofs.«180346_j15504831938685_1_alg».proof.Proof.Pieces
import proofs.«180346_j15504831938685_1_alg».proof.Proof.BlockSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The chain of steps -/

/-- The accumulator after point `n`: one step from the zero vector at point 0, one step from the point before after. -/
def acc (c : Dev nD) : (n : ℕ) → n < cfg0.N → Vec F S1x1 .f32
  | 0, h => Blocks.step (iblk m c 0 ⟨0, h⟩) (iblk m c 1 ⟨0, h⟩) (iblk m c 2 ⟨0, h⟩) (iblk m c 3 ⟨0, h⟩) (Gen.k0_pay2 (F := F))
  | n + 1, h => Blocks.step (iblk m c 0 ⟨n + 1, h⟩) (iblk m c 1 ⟨n + 1, h⟩) (iblk m c 2 ⟨n + 1, h⟩) (iblk m c 3 ⟨n + 1, h⟩) (acc c n (Nat.lt_of_succ_lt h))

/-- After every point the output's staging buffer and the accumulator both hold the chain. -/
theorem outsAt_eq (c : Dev nD) : ∀ (n : ℕ) (h : n < cfg0.N), outsAt m c n h = (acc m c n h, acc m c n h)
  | 0, h => Prod.ext
      (outFirst_eq c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) accM (Memref.isWhole_whole _) ((isFirst_iff ⟨0, h⟩).mpr rfl) (iblk m c 0 ⟨0, h⟩) (iblk m c 1 ⟨0, h⟩) (iblk m c 2 ⟨0, h⟩) (iblk m c 3 ⟨0, h⟩))
      (accFirst_eq c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) accM (Memref.isWhole_whole _) ((isFirst_iff ⟨0, h⟩).mpr rfl) (iblk m c 0 ⟨0, h⟩) (iblk m c 1 ⟨0, h⟩) (iblk m c 2 ⟨0, h⟩) (iblk m c 3 ⟨0, h⟩))
  | n + 1, h => by
    have ih := outsAt_eq c n (Nat.lt_of_succ_lt h)
    refine Prod.ext
      ((outLater_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) accM (Memref.isWhole_whole _) (fun h' => Nat.succ_ne_zero n ((isFirst_iff ⟨n + 1, h⟩).mp h')) (iblk m c 0 ⟨n + 1, h⟩) (iblk m c 1 ⟨n + 1, h⟩) (iblk m c 2 ⟨n + 1, h⟩) (iblk m c 3 ⟨n + 1, h⟩) (outsAt m c n (Nat.lt_of_succ_lt h)).2).trans ?_)
      ((accLater_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) accM (Memref.isWhole_whole _) (fun h' => Nat.succ_ne_zero n ((isFirst_iff ⟨n + 1, h⟩).mp h')) (iblk m c 0 ⟨n + 1, h⟩) (iblk m c 1 ⟨n + 1, h⟩) (iblk m c 2 ⟨n + 1, h⟩) (iblk m c 3 ⟨n + 1, h⟩) (outsAt m c n (Nat.lt_of_succ_lt h)).2).trans ?_)
    · show Blocks.step (iblk m c 0 ⟨n + 1, h⟩) (iblk m c 1 ⟨n + 1, h⟩) (iblk m c 2 ⟨n + 1, h⟩) (iblk m c 3 ⟨n + 1, h⟩) (outsAt m c n (Nat.lt_of_succ_lt h)).2
          = Blocks.step (iblk m c 0 ⟨n + 1, h⟩) (iblk m c 1 ⟨n + 1, h⟩) (iblk m c 2 ⟨n + 1, h⟩) (iblk m c 3 ⟨n + 1, h⟩) (acc m c n (Nat.lt_of_succ_lt h))
      rw [ih]
    · show Blocks.step (iblk m c 0 ⟨n + 1, h⟩) (iblk m c 1 ⟨n + 1, h⟩) (iblk m c 2 ⟨n + 1, h⟩) (iblk m c 3 ⟨n + 1, h⟩) (outsAt m c n (Nat.lt_of_succ_lt h)).2
          = Blocks.step (iblk m c 0 ⟨n + 1, h⟩) (iblk m c 1 ⟨n + 1, h⟩) (iblk m c 2 ⟨n + 1, h⟩) (iblk m c 3 ⟨n + 1, h⟩) (acc m c n (Nat.lt_of_succ_lt h))
      rw [ih]

/-! ## At the extended reals -/

variable (mI : (ℓ : Loc nD τ sig) → Buf (Elt Ideal) ℓ)

/-- The zero vector the first point stores reads 0. -/
theorem pay2_apply (i : S1x1.Idx) : Gen.k0_pay2 (F := Ideal) i = 0 := by
  show shapeCast S1x1 (broadcast S1x1 (Scalar.ofBits .f32 0x00000000#32 : Ideal .f32)) shapeCasts_S1x1_S1x1 i = 0
  rw [shapeCast_self]
  exact Ideal.ofBits_zero_f32

/-- The sum of the block of losses of point `t`. -/
def tot (c : Dev nD) (t : ℕ) (h : t < cfg0.N) : EReal :=
  ∑ r : Fin 512, ∑ c' : Fin 512, Blocks.lossBlk (F := Ideal) (iblk mI c 0 ⟨t, h⟩) (iblk mI c 1 ⟨t, h⟩) (iblk mI c 2 ⟨t, h⟩) (iblk mI c 3 ⟨t, h⟩) (ix2 r c')

/-- The chain after point `n` reads the sum of the block sums of the points up to `n`. -/
theorem acc_apply (c : Dev nD) : ∀ (n : ℕ) (h : n < cfg0.N) (i : S1x1.Idx),
    acc mI c n h i = ∑ t : Fin (n + 1), tot mI c t.val (Nat.lt_of_lt_of_le t.isLt (Nat.succ_le_of_lt h))
  | 0, h, i => by
    refine (BlockSums.step_apply (iblk mI c 0 ⟨0, h⟩) (iblk mI c 1 ⟨0, h⟩) (iblk mI c 2 ⟨0, h⟩) (iblk mI c 3 ⟨0, h⟩) (Gen.k0_pay2 (F := Ideal)) i).trans ?_
    rw [pay2_apply, zero_add, Fin.sum_univ_one]
    rfl
  | n + 1, h, i => by
    refine (BlockSums.step_apply (iblk mI c 0 ⟨n + 1, h⟩) (iblk mI c 1 ⟨n + 1, h⟩) (iblk mI c 2 ⟨n + 1, h⟩) (iblk mI c 3 ⟨n + 1, h⟩) (acc mI c n (Nat.lt_of_succ_lt h)) i).trans ?_
    rw [acc_apply c n (Nat.lt_of_succ_lt h) i, Fin.sum_univ_castSucc (n := n + 1)]
    rfl

/-- After the last of the 256 points: the sum of all the block sums. -/
theorem acc_last (c : Dev nD) (h : 255 < cfg0.N) (i : S1x1.Idx) :
    acc mI c 255 h i = ∑ t : Fin 256, tot mI c t.val (by have := t.isLt; omega) :=
  acc_apply mI c 255 h i

end Cert.KernelIdeal.Hand

end
-- ==== Proof.BlockReads.lean ====
/-
  What the region finds behind its four input windows, and each window's block at a grid point read at an index.

  The row matrix is @main's first argument as it stands; the two label layouts are the label vector broadcast to a
  column and to a row by the two host operations before the region.  At grid point t = 16 i + j the windows read
  rows 512 i … of the row matrix, rows 512 j … of it, rows 512 i … of the label column and columns 512 j … of the
  label row: a block's coordinate is the block index times the block size plus the coordinate inside the block.
-/
import proofs.«180346_j15504831938685_1_alg».proof.Proof.Entry
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds behind each window's array -/

/-- The row matrix is the first argument as launched: no host operation writes it. -/
theorem V_arg0 (c : Dev nD) : V m c main_arg0 = m ((c : Thread nD τ).loc main_arg0) := by
  show StableHlo.after hostOps0 (V₀ m c) (Proc.devRef .tc main_arg0) = _
  after_results

/-- The label column is the label vector broadcast along a new trailing unit axis. -/
theorem V_v0 (c : Dev nD) :
    (V m c main_v0 : (⟨S8192x1, .i32⟩ : BufTy).Contents (Elt F))
      = broadcastInDim S8192x1 ![0] bcast_S8192_S8192x1_0 (m ((c : Thread nD τ).loc main_arg1)) := by
  show StableHlo.after hostOps0 (V₀ m c) (Proc.devRef .tc main_v0) = _
  after_results

/-- The label row is the label vector broadcast along a new leading unit axis. -/
theorem V_v1 (c : Dev nD) :
    (V m c main_v1 : (⟨S1x8192, .i32⟩ : BufTy).Contents (Elt F))
      = broadcastInDim S1x8192 ![1] bcast_S8192_S1x8192_1 (m ((c : Thread nD τ).loc main_arg1)) := by
  show StableHlo.after hostOps0 (V₀ m c) (Proc.devRef .tc main_v1) = _
  after_results

/-! ## The windows' block indices over the grid's 256 points -/

/-- At point t = 16 i + j: the first row window and the label column are on block i, the second row window and
    the label row on block j. -/
theorem idx_facts : ∀ t : Fin cfg0.N,
    win0_0.index t 0 = t.val / 16 ∧ win0_0.index t 1 = 0 ∧ win0_1.index t 0 = t.val % 16 ∧ win0_1.index t 1 = 0
    ∧ win0_2.index t 0 = t.val / 16 ∧ win0_2.index t 1 = 0 ∧ win0_3.index t 0 = 0 ∧ win0_3.index t 1 = t.val % 16 :=
  (by decide +kernel : ∀ t : Fin grid0.N,
    win0_0.index t 0 = t.val / 16 ∧ win0_0.index t 1 = 0 ∧ win0_1.index t 0 = t.val % 16 ∧ win0_1.index t 1 = 0
    ∧ win0_2.index t 0 = t.val / 16 ∧ win0_2.index t 1 = 0 ∧ win0_3.index t 0 = 0 ∧ win0_3.index t 1 = t.val % 16)

/-! ## The blocks read at an index -/

/-- The grid has 256 points. -/
theorem t_lt (t : Fin cfg0.N) : t.val < 256 := t.isLt

/-- Row r of block b (of 16) of the 8192 rows: row 512 b + r. -/
abbrev rowOf (b : Nat) (hb : b < 16) (r : Fin 512) : Fin 8192 := ⟨512 * b + r.val, by have := r.isLt; omega⟩

/-- The first row window's block at point t is rows 512 (t / 16) … of the row matrix. -/
theorem iblk0_apply (c : Dev nD) (t : Fin cfg0.N) (r : Fin 512) (k : Fin 64) :
    (iblk m c 0 t : Vec F S512x64 .f32) (ix2 r k)
      = m ((c : Thread nD τ).loc main_arg0) (ix2 (rowOf (t.val / 16) (by have := t_lt t; omega) r) k) := by
  have hi := idx_facts t
  unfold iblk
  rw [View.read_apply]
  show V m c main_arg0 _ = _
  rw [V_arg0]
  congr 1
  funext a
  apply Fin.ext
  match a with
  | ⟨0, _⟩ => show win0_0.index t 0 * 512 + 1 * r.val = 512 * (t.val / 16) + r.val; rw [hi.1]; omega
  | ⟨1, _⟩ => show win0_0.index t 1 * 64 + 1 * k.val = k.val; rw [hi.2.1]; omega

/-- The second row window's block at point t is rows 512 (t % 16) … of the row matrix. -/
theorem iblk1_apply (c : Dev nD) (t : Fin cfg0.N) (r : Fin 512) (k : Fin 64) :
    (iblk m c 1 t : Vec F S512x64 .f32) (ix2 r k)
      = m ((c : Thread nD τ).loc main_arg0) (ix2 (rowOf (t.val % 16) (by omega) r) k) := by
  have hi := idx_facts t
  unfold iblk
  rw [View.read_apply]
  show V m c main_arg0 _ = _
  rw [V_arg0]
  congr 1
  funext a
  apply Fin.ext
  match a with
  | ⟨0, _⟩ => show win0_1.index t 0 * 512 + 1 * r.val = 512 * (t.val % 16) + r.val; rw [hi.2.2.1]; omega
  | ⟨1, _⟩ => show win0_1.index t 1 * 64 + 1 * k.val = k.val; rw [hi.2.2.2.1]; omega

/-- The label column window's block at point t is labels 512 (t / 16) … . -/
theorem iblk2_apply (c : Dev nD) (t : Fin cfg0.N) (r : Fin 512) :
    (iblk m c 2 t : Vec F S512x1 .i32) (ix2 r (0 : Fin 1))
      = m ((c : Thread nD τ).loc main_arg1) (ix1 (rowOf (t.val / 16) (by have := t_lt t; omega) r)) := by
  have hi := idx_facts t
  unfold iblk
  rw [View.read_apply]
  show V m c main_v0 _ = _
  rw [V_v0]
  refine broadcastInDim_apply _ bcast_S8192_S8192x1_0 _ _ (ix1 (rowOf (t.val / 16) (by have := t_lt t; omega) r))
    (fun a => match a with | ⟨0, _⟩ => ?_)
  show 512 * (t.val / 16) + r.val = if (8192 : Nat) = 1 then 0 else win0_2.index t 0 * 512 + 1 * r.val
  rw [if_neg (by decide), hi.2.2.2.2.1]
  omega

/-- The label row window's block at point t is labels 512 (t % 16) … . -/
theorem iblk3_apply (c : Dev nD) (t : Fin cfg0.N) (c' : Fin 512) :
    (iblk m c 3 t : Vec F S1x512 .i32) (ix2 (0 : Fin 1) c')
      = m ((c : Thread nD τ).loc main_arg1) (ix1 (rowOf (t.val % 16) (by omega) c')) := by
  have hi := idx_facts t
  unfold iblk
  rw [View.read_apply]
  show V m c main_v1 _ = _
  rw [V_v1]
  refine broadcastInDim_apply _ bcast_S8192_S1x8192_1 _ _ (ix1 (rowOf (t.val % 16) (by omega) c'))
    (fun a => match a with | ⟨0, _⟩ => ?_)
  show 512 * (t.val % 16) + c'.val = if (8192 : Nat) = 1 then 0 else win0_3.index t 1 * 512 + 1 * c'.val
  rw [if_neg (by decide), hi.2.2.2.2.2.2.2]
  omega

end Cert.KernelIdeal.Hand

end
-- ==== Proof.BlockLossNorm.lean ====
import proofs.«180346_j15504831938685_1_alg».proof.Proof.Blocks
import proofs.«180346_j15504831938685_1_alg».proof.Proof.Gen.ReferenceIdeal.Read

noncomputable section

namespace Cert.KernelIdeal.BlockLoss

open Idealize.ShloMosaic Idealize.ShloMosaic.ValueIdx Cert.KernelIdeal Cert.KernelIdeal.Gen
open scoped BigOperators

/-- The rows of a 512x64 block, each divided by the larger of its Euclidean norm and the threshold ε: the term the
    body computes from a loaded block before the product of the two blocks. -/
def nrmBlk {F : FTy → Type} [FloatOps F] (x : Vec F S512x64 .f32) : FVec F S512x64 .f32 :=
  divf x (broadcastTo S512x64
    (maximumf
      (sqrt (shapeCast S512x1 (multiReduction .add [1] S512 (mulf x x) 0x00000000#32 reduces_S512x64_S512 (.inl rfl) rfl)
        shapeCasts_S512_S512x1))
      (broadcast S512x1 (Scalar.ofBits .f32 0x322BCC77#32)))
    broadcasts_S512x1_S512x64)

/-- The normalised entry (R, k) of an array of rows: x_{R,k} / max(sqrt(Σ_k' x_{R,k'}²), ε). -/
def nrm {n : Nat} (X : (⟨2, ![n, 64]⟩ : Shape).Idx → EReal) (R : Fin n) (k : Fin 64) : EReal :=
  Ideal.div (X (ix2 R k))
    (max (Ideal.sqrt (∑ k' : Fin 64, X (ix2 R k') * X (ix2 R k'))) (Ideal.ofBits .f32 0x322BCC77#32))

/-- A row's sum of squares, as the body reduces it along the lanes. -/
theorem sumsq_apply (x : Vec Ideal S512x64 .f32) (r : Fin 512) :
    multiReduction (F := Ideal) .add [1] S512 (mulf x x) 0x00000000#32 reduces_S512x64_S512 (.inl rfl) rfl (ix1 r)
      = ∑ k' : Fin 64, x (ix2 r k') * x (ix2 r k') := by
  refine (Ideal.multiReduction_add_single (mulf x x) 0x00000000#32 reduces_S512x64_S512 (.inl rfl) rfl (ix1 r)).trans ?_
  refine Finset.sum_congr rfl fun k' _ => ?_
  have e : reduces_S512x64_S512.lift (ix1 r) k' = ix2 r k' :=
    funext fun a => Fin.ext (by match a with | ⟨0, _⟩ => rfl | ⟨1, _⟩ => rfl)
  rw [e]
  rfl

/-- The body's normalised block read at an entry. -/
theorem nrmBlk_apply (x : Vec Ideal S512x64 .f32) (r : Fin 512) (k : Fin 64) :
    nrmBlk (F := Ideal) x (ix2 r k) = nrm x r k := by
  unfold nrmBlk nrm
  rw [divf_apply]
  rw [broadcastTo_apply _ broadcasts_S512x1_S512x64 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])]
  rw [maximumf_apply, broadcast_apply]
  show Ideal.div _ (max (Ideal.sqrt (shapeCast S512x1 _ shapeCasts_S512_S512x1 (ix2 r (0 : Fin 1)))) _) = _
  rw [shapeCast_apply _ shapeCasts_S512_S512x1 (ix2 r (0 : Fin 1)) (ix1 r) (by
    rw [Shape.rowMajor_val_one, Shape.rowMajor_val_two]; show r.val = r.val * 1 + 0; omega)]
  exact congrArg (fun s => Ideal.div (x (ix2 r k)) (max (Ideal.sqrt s) (Ideal.ofBits .f32 0x322BCC77#32))) (sumsq_apply x r)

/-- The reference's normalised array read at an entry: the same quotient, over the whole array of rows. -/
theorem ref_nrm (X : (⟨Cert.ReferenceIdeal.S8192x64, .f32⟩ : BufTy).Contents (Elt Ideal)) (R : Fin 8192) (k : Fin 64) :
    Cert.ReferenceIdeal.Read.val_main_v4 (F := Ideal) X (ix2 R k) = nrm X R k := by
  rw [Cert.ReferenceIdeal.Read.val_main_v4_apply, Cert.ReferenceIdeal.Read.val_main_v3_apply,
    Cert.ReferenceIdeal.Read.val_main_v2_apply, Cert.ReferenceIdeal.Read.val_main_v0_apply,
    Cert.ReferenceIdeal.Read.val_main_call0_v2_apply, Cert.ReferenceIdeal.Read.val_main_call0_v1_apply,
    Cert.ReferenceIdeal.Read.val_main_v1_apply, Cert.ReferenceIdeal.Read.val_main_cst_apply,
    Cert.ReferenceIdeal.Read.val_main_call0_cst_apply]
  unfold nrm
  have e : ∀ k' : Fin 64, Cert.ReferenceIdeal.Read.val_main_call0_v0 (F := Ideal) X
      (Cert.ReferenceIdeal.Read.idx_main_call0_v1 (Cert.ReferenceIdeal.Read.idx_main_call0_v2
        (Cert.ReferenceIdeal.Read.idx_main_v3 (ix2 R k))) k') = X (ix2 R k') * X (ix2 R k') := fun k' => by
    rw [Cert.ReferenceIdeal.Read.val_main_call0_v0_apply]
    have e' : Cert.ReferenceIdeal.Read.idx_main_call0_v1 (Cert.ReferenceIdeal.Read.idx_main_call0_v2
        (Cert.ReferenceIdeal.Read.idx_main_v3 (ix2 R k))) k' = ix2 R k' :=
      funext fun a => Fin.ext (by match a with | ⟨0, _⟩ => rfl | ⟨1, _⟩ => rfl)
    rw [e']
    rfl
  rw [Finset.sum_congr rfl fun k' _ => e k']
  show Ideal.div _ (max (Ideal.sqrt (Ideal.ofBits .f32 0x00000000#32 + _)) _) = _
  rw [Ideal.ofBits_zero_f32, zero_add]
  rfl

end Cert.KernelIdeal.BlockLoss

end
-- ==== Proof.BlockLossCos.lean ====
import proofs.«180346_j15504831938685_1_alg».proof.Proof.BlockLossNorm

noncomputable section

namespace Cert.KernelIdeal.BlockLoss

open Idealize.ShloMosaic Idealize.ShloMosaic.ValueIdx Cert.KernelIdeal Cert.KernelIdeal.Gen
open scoped BigOperators

/-- The product of the two normalised blocks, the second transposed, into a zero accumulator: the block of cosines. -/
def cosBlk {F : FTy → Type} [FloatOps F] (x0 x1 : Vec F S512x64 .f32) : FVec F S512x512 .f32 :=
  matmul dot_S512x64_S64x512_S512x512_1_0_0_1_n_n none
    (truncf .bf16 (nrmBlk x0) bitsLt_bf16_f32)
    (transpose S64x512 [1, 0] (truncf .bf16 (nrmBlk x1) bitsLt_bf16_f32) transposes_S512x64_p1_0_S64x512)
    (constant S512x512 .f32 0x00000000#32)

/-- The body's third payload is one minus that block. -/
theorem k0_pay3_eq {F : FTy → Type} [FloatOps F] (x0 x1 : Vec F S512x64 .f32) :
    k0_pay3 x0 x1 = subf (broadcast S512x512 (Scalar.ofBits .f32 0x3F800000#32)) (cosBlk x0 x1) := rfl

theorem lhs_cos_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem lhs_cos_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_cos_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_cos_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The block of cosines read at an entry: the inner product of the two normalised rows. -/
theorem cosBlk_apply (x0 x1 : Vec Ideal S512x64 .f32) (r c : Fin 512) :
    cosBlk (F := Ideal) x0 x1 (ix2 r c) = ∑ k : Fin 64, nrm x0 r k * nrm x1 c k := by
  unfold cosBlk
  simp only [matmul]
  rw [Ideal.matmul_constant_zero_apply,
    ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 r c)
      ((ValueIdx.contrEquiv1 dot_S512x64_S64x512_S512x512_1_0_0_1_n_n 64 rfl rfl).symm k) = ix2 r k :=
    funext fun a => Fin.ext (by
      match a with
      | ⟨0, _⟩ => exact lhs_cos_0 _ _
      | ⟨1, _⟩ => exact (lhs_cos_1 _ _).trans hk)
  have er : dot_S512x64_S64x512_S512x512_1_0_0_1_n_n.rhsIdx (ix2 r c)
      ((ValueIdx.contrEquiv1 dot_S512x64_S64x512_S512x512_1_0_0_1_n_n 64 rfl rfl).symm k) = ix2 k c :=
    funext fun a => Fin.ext (by
      match a with
      | ⟨0, _⟩ => exact (rhs_cos_0 _ _).trans hk
      | ⟨1, _⟩ => exact rhs_cos_1 _ _)
  rw [el, er, truncf_apply,
    transpose_apply [1, 0] _ transposes_S512x64_p1_0_S64x512 (ix2 k c) (ix2 c k) (fun b => match b with
      | ⟨0, _⟩ => rfl
      | ⟨1, _⟩ => rfl),
    truncf_apply, nrmBlk_apply, nrmBlk_apply]

/-- The reference's matrix of cosines read at an entry: the same inner product, over the whole array of rows. -/
theorem ref_cos (X : (⟨Cert.ReferenceIdeal.S8192x64, .f32⟩ : BufTy).Contents (Elt Ideal)) (R Cc : Fin 8192) :
    Cert.ReferenceIdeal.Read.val_main_v6 (F := Ideal) X (ix2 R Cc) = ∑ k : Fin 64, nrm X R k * nrm X Cc k := by
  rw [Cert.ReferenceIdeal.Read.val_main_v6_apply]
  refine Finset.sum_congr rfl fun k _ => ?_
  rw [Cert.ReferenceIdeal.Read.val_main_v5_apply]
  have el : Cert.ReferenceIdeal.Read.lidx_main_v6 (ix2 R Cc) k = ix2 R k :=
    funext fun a => Fin.ext (by match a with | ⟨0, _⟩ => rfl | ⟨1, _⟩ => rfl)
  have er : Cert.ReferenceIdeal.Read.idx_main_v5 (Cert.ReferenceIdeal.Read.ridx_main_v6 (ix2 R Cc) k) = ix2 Cc k :=
    funext fun a => Fin.ext (by match a with | ⟨0, _⟩ => rfl | ⟨1, _⟩ => rfl)
  rw [el, er, ref_nrm, ref_nrm]

end Cert.KernelIdeal.BlockLoss

end
-- ==== Proof.BlockLossInd.lean ====
import proofs.«180346_j15504831938685_1_alg».proof.Proof.Blocks
import proofs.«180346_j15504831938685_1_alg».proof.Proof.Gen.ReferenceIdeal.Read

noncomputable section

namespace Cert.KernelIdeal.BlockLoss

open Idealize.ShloMosaic Idealize.ShloMosaic.ValueIdx Cert.KernelIdeal Cert.KernelIdeal.Gen
open scoped BigOperators

/-- A one-bit word widened to 32 bits and read as a signed integer is the bit read as an unsigned one: both
    conversions give 0 or 1 as the bit says. -/
theorem sitofp_extui_bit (b : BitVec 1) :
    FloatOps.sitofp (F := Ideal) .f32 (b.setWidth 32) = FloatOps.uitofp (F := Ideal) .f32 b := by
  have h : (b.setWidth 32).toInt = (b.toNat : Int) := by
    rcases BitVec.eq_zero_or_eq_one b with rfl | rfl <;> decide
  show (((b.setWidth 32).toInt : ℝ) : EReal) = (((b.toNat : ℕ) : ℝ) : EReal)
  rw [h, Int.cast_natCast]

/-- The body's indicator block read at an entry: the comparison bit of the two labels, as a float. -/
theorem k0_pay4_apply (c2 : Vec Ideal S512x1 .i32) (c3 : Vec Ideal S1x512 .i32) (r c : Fin 512) :
    k0_pay4 (F := Ideal) c2 c3 (ix2 r c)
      = FloatOps.uitofp (F := Ideal) .f32 (IntOp.cmpi .eq (c2 (ix2 r (0 : Fin 1))) (c3 (ix2 (0 : Fin 1) c))) := by
  unfold k0_pay4
  rw [sitofp_apply, extui_apply, sitofp_extui_bit]
  show FloatOps.uitofp (F := Ideal) .f32 (IntOp.cmpi .eq
      (broadcastTo S512x512 (shapeCast S512x1 c2 shapeCasts_S512x1_S512x1) broadcasts_S512x1_S512x512 (ix2 r c))
      (broadcastTo S512x512 (shapeCast S1x512 c3 shapeCasts_S1x512_S1x512) broadcasts_S1x512_S512x512 (ix2 r c))) = _
  rw [shapeCast_self, shapeCast_self,
    broadcastTo_apply c2 broadcasts_S512x1_S512x512 (ix2 r c) (ix2 r (0 : Fin 1)) (fun a => match a with
      | ⟨0, _⟩ => by show r.val = if (512 : Nat) = 1 then 0 else r.val; rw [if_neg (by decide)]
      | ⟨1, _⟩ => by show 0 = if (1 : Nat) = 1 then 0 else c.val; rw [if_pos rfl]),
    broadcastTo_apply c3 broadcasts_S1x512_S512x512 (ix2 r c) (ix2 (0 : Fin 1) c) (fun a => match a with
      | ⟨0, _⟩ => by show 0 = if (1 : Nat) = 1 then 0 else r.val; rw [if_pos rfl]
      | ⟨1, _⟩ => by show c.val = if (512 : Nat) = 1 then 0 else c.val; rw [if_neg (by decide)])]

/-- The reference's indicator matrix read at an entry. -/
theorem ref_ind (C : (⟨Cert.ReferenceIdeal.S8192, .i32⟩ : BufTy).Contents (Elt Ideal)) (R Cc : Fin 8192) :
    Cert.ReferenceIdeal.Read.val_main_v14 (F := Ideal) C (ix2 R Cc)
      = FloatOps.uitofp (F := Ideal) .f32 (IntOp.cmpi .eq (C (ix1 R)) (C (ix1 Cc))) := by
  rw [Cert.ReferenceIdeal.Read.val_main_v14_apply, Cert.ReferenceIdeal.Read.val_main_v13_apply,
    Cert.ReferenceIdeal.Read.val_main_v11_apply, Cert.ReferenceIdeal.Read.val_main_v12_apply,
    Cert.ReferenceIdeal.Read.val_main_v9_apply, Cert.ReferenceIdeal.Read.val_main_v10_apply]
  have e1 : Cert.ReferenceIdeal.Read.idx_main_v9 (Cert.ReferenceIdeal.Read.idx_main_v11 (ix2 R Cc)) = ix1 R :=
    funext fun a => Fin.ext (by match a with | ⟨0, _⟩ => rfl)
  have e2 : Cert.ReferenceIdeal.Read.idx_main_v10 (Cert.ReferenceIdeal.Read.idx_main_v12 (ix2 R Cc)) = ix1 Cc :=
    funext fun a => Fin.ext (by match a with | ⟨0, _⟩ => rfl)
  rw [e1, e2]

end Cert.KernelIdeal.BlockLoss

end
-- ==== Proof.BlockLoss.lean ====
import proofs.«180346_j15504831938685_1_alg».proof.Proof.BlockLossCos
import proofs.«180346_j15504831938685_1_alg».proof.Proof.BlockLossInd

noncomputable section

namespace Cert.KernelIdeal.BlockLoss

open Idealize.ShloMosaic Idealize.ShloMosaic.ValueIdx Cert.KernelIdeal Cert.KernelIdeal.Gen
open scoped BigOperators

/-- Row r of block i of the 8192 rows: row 512 i + r. -/
abbrev blkRow (i : Fin 16) (r : Fin 512) : Fin 8192 :=
  ⟨512 * i.val + r.val, by have := i.isLt; have := r.isLt; omega⟩

/-- The normalised entry depends only on the row it is taken from. -/
theorem nrm_congr {n m : Nat} (x : (⟨2, ![n, 64]⟩ : Shape).Idx → EReal) (X : (⟨2, ![m, 64]⟩ : Shape).Idx → EReal)
    (r : Fin n) (R : Fin m) (h : ∀ k : Fin 64, x (ix2 r k) = X (ix2 R k)) (k : Fin 64) : nrm x r k = nrm X R k := by
  unfold nrm
  rw [h k, Finset.sum_congr rfl fun k' _ => by rw [h k']]

/-- The block of losses of grid point (i, j) is the reference's matrix of losses on rows 512 i … and columns 512 j …:
    entry by entry both are t · (1 − cos) + (1 − t) · max(1.1 − (1 − cos), 0), with cos the inner product of the two
    normalised rows and t the indicator that the two labels agree. -/
theorem lossBlk_eq
    (X : (⟨Cert.ReferenceIdeal.S8192x64, .f32⟩ : BufTy).Contents (Elt Ideal))
    (C : (⟨Cert.ReferenceIdeal.S8192, .i32⟩ : BufTy).Contents (Elt Ideal))
    (i j : Fin 16)
    (x0 x1 : Vec Ideal S512x64 .f32) (c2 : Vec Ideal S512x1 .i32) (c3 : Vec Ideal S1x512 .i32)
    (hx0 : ∀ (r : Fin 512) (k : Fin 64), x0 (ix2 r k) = X (ix2 (blkRow i r) k))
    (hx1 : ∀ (r : Fin 512) (k : Fin 64), x1 (ix2 r k) = X (ix2 (blkRow j r) k))
    (hc2 : ∀ r : Fin 512, c2 (ix2 r (0 : Fin 1)) = C (ix1 (blkRow i r)))
    (hc3 : ∀ c : Fin 512, c3 (ix2 (0 : Fin 1) c) = C (ix1 (blkRow j c)))
    (r c : Fin 512) :
    Cert.KernelIdeal.Blocks.lossBlk x0 x1 c2 c3 (ix2 r c)
      = Cert.ReferenceIdeal.Read.val_main_v23 (F := Ideal) X C (ix2 (blkRow i r) (blkRow j c)) := by
  -- the reference's entry
  rw [Cert.ReferenceIdeal.Read.val_main_v23_apply, Cert.ReferenceIdeal.Read.val_main_v15_apply,
    Cert.ReferenceIdeal.Read.val_main_v22_apply, Cert.ReferenceIdeal.Read.val_main_v17_apply,
    Cert.ReferenceIdeal.Read.val_main_v21_apply, Cert.ReferenceIdeal.Read.val_main_v19_apply,
    Cert.ReferenceIdeal.Read.val_main_v8_apply, Cert.ReferenceIdeal.Read.val_main_v16_apply,
    Cert.ReferenceIdeal.Read.val_main_v18_apply, Cert.ReferenceIdeal.Read.val_main_v20_apply,
    Cert.ReferenceIdeal.Read.val_main_v7_apply, Cert.ReferenceIdeal.Read.val_main_cst_0_apply,
    Cert.ReferenceIdeal.Read.val_main_cst_1_apply, Cert.ReferenceIdeal.Read.val_main_cst_2_apply,
    Cert.ReferenceIdeal.Read.val_main_cst_3_apply, ref_ind, ref_cos]
  -- the body's entry
  show addf (mulf (k0_pay4 c2 c3) (k0_pay3 x0 x1))
      (mulf (subf (broadcast S512x512 (Scalar.ofBits .f32 0x3F800000#32)) (k0_pay4 c2 c3))
        (maximumf (subf (broadcast S512x512 (Scalar.ofBits .f32 0x3F8CCCCD#32)) (k0_pay3 x0 x1))
          (broadcast S512x512 (Scalar.ofBits .f32 0x00000000#32)))) (ix2 r c) = _
  rw [k0_pay3_eq]
  simp only [addf_apply, mulf_apply, subf_apply, maximumf_apply, broadcast_apply, k0_pay4_apply, cosBlk_apply]
  -- the same rows and the same labels
  rw [hc2 r, hc3 c, Finset.sum_congr rfl fun k _ => by
    rw [nrm_congr x0 X r (blkRow i r) (hx0 r) k, nrm_congr x1 X c (blkRow j c) (hx1 c) k]]
  rfl

end Cert.KernelIdeal.BlockLoss

end
-- ==== Proof.BlockSumsRetile.lean ====
/-
  Re-tiling a sum over an 8192 x 8192 index set into 16 x 16 blocks of 512 x 512.

  A sum over `Fin (m * n)` is the double sum over a block number `i : Fin m` and a position `r : Fin n` inside the
  block, the index being `n * i + r` (`sum_fin_split`).  Applied to both coordinates of a rank-2 index, and with the
  256 blocks numbered row-major by `t = 16 * i + j`, the sum of a function over all 8192 x 8192 indices is the sum
  over the blocks of the sums over each block (`sum_retile`).  Sums are taken in an additive commutative monoid, so they
  reorder freely; nothing about finiteness of the summands is used.  The last statement reads the reference's total
  sum in that form.
-/
import proofs.«180346_j15504831938685_1_alg».proof.Proof.Gen.ReferenceIdeal.Read

noncomputable section

namespace Cert.KernelIdeal.BlockSums

open Idealize.ShloMosaic Idealize.ShloMosaic.ValueIdx Idealize.ShloMosaic.TcCoe Idealize.SL.Sem Idealize.ShloMosaic.StableHlo

/-- Position `r` of block `i` is below the total extent. -/
theorem split_lt {m n N : Nat} (hN : m * n = N) (i : Fin m) (r : Fin n) : n * i.val + r.val < N := by
  subst hN
  calc n * i.val + r.val < n * i.val + n := by have := r.isLt; omega
    _ = n * (i.val + 1) := by ring
    _ ≤ n * m := Nat.mul_le_mul_left _ i.isLt
    _ = m * n := Nat.mul_comm _ _

/-- A sum over `Fin N`, `N = m * n`, is the sum over the `m` blocks of the sums over the `n` positions of each. -/
theorem sum_fin_split {M : Type*} [AddCommMonoid M] (m n N : Nat) (hN : m * n = N) (h : Fin N → M) :
    ∑ a : Fin N, h a = ∑ i : Fin m, ∑ r : Fin n, h ⟨n * i.val + r.val, split_lt hN i r⟩ := by
  subst hN
  rw [← Equiv.sum_comp (finProdFinEquiv (m := m) (n := n)) h, Fintype.sum_prod_type]
  refine Finset.sum_congr rfl fun i _ => Finset.sum_congr rfl fun r _ => congrArg h (Fin.ext ?_)
  show r.val + n * i.val = n * i.val + r.val
  exact Nat.add_comm _ _

/-- Row (or column) `512 * q + r` of the big index set, for a block number read off a row-major block index `t`. -/
theorem tile_lt (q : Nat) (hq : q < 16) (r : Fin 512) : 512 * q + r.val < 8192 := by
  have := r.isLt; omega

/-- The re-tiling law for a function of the two coordinates. -/
theorem sum_retile_fun {M : Type*} [AddCommMonoid M] (f : Fin 8192 → Fin 8192 → M) :
    ∑ t : Fin 256, ∑ r : Fin 512, ∑ c : Fin 512,
        f ⟨512 * (t.val / 16) + r.val, tile_lt _ (by have := t.isLt; omega) r⟩
          ⟨512 * (t.val % 16) + c.val, tile_lt _ (by have := t.isLt; omega) c⟩
      = ∑ a : Fin 8192, ∑ b : Fin 8192, f a b := by
  -- the right side, both coordinates split into block and position
  have hR : ∑ a : Fin 8192, ∑ b : Fin 8192, f a b
      = ∑ i : Fin 16, ∑ r : Fin 512, ∑ j : Fin 16, ∑ c : Fin 512,
          f ⟨512 * i.val + r.val, split_lt (by norm_num) i r⟩ ⟨512 * j.val + c.val, split_lt (by norm_num) j c⟩ := by
    rw [sum_fin_split 16 512 8192 (by norm_num) (fun a => ∑ b : Fin 8192, f a b)]
    refine Finset.sum_congr rfl fun i _ => Finset.sum_congr rfl fun r _ => ?_
    exact sum_fin_split 16 512 8192 (by norm_num) (fun b => f _ b)
  -- the left side, the block index split into its two block numbers
  have hL : ∑ t : Fin 256, ∑ r : Fin 512, ∑ c : Fin 512,
        f ⟨512 * (t.val / 16) + r.val, tile_lt _ (by have := t.isLt; omega) r⟩
          ⟨512 * (t.val % 16) + c.val, tile_lt _ (by have := t.isLt; omega) c⟩
      = ∑ i : Fin 16, ∑ j : Fin 16, ∑ r : Fin 512, ∑ c : Fin 512,
          f ⟨512 * i.val + r.val, split_lt (by norm_num) i r⟩ ⟨512 * j.val + c.val, split_lt (by norm_num) j c⟩ := by
    rw [sum_fin_split 16 16 256 (by norm_num) (fun t : Fin 256 => ∑ r : Fin 512, ∑ c : Fin 512,
        f ⟨512 * (t.val / 16) + r.val, tile_lt _ (by have := t.isLt; omega) r⟩
          ⟨512 * (t.val % 16) + c.val, tile_lt _ (by have := t.isLt; omega) c⟩)]
    refine Finset.sum_congr rfl fun i _ => Finset.sum_congr rfl fun j _ =>
      Finset.sum_congr rfl fun r _ => Finset.sum_congr rfl fun c _ => ?_
    have hi : (16 * i.val + j.val) / 16 = i.val := by have := j.isLt; omega
    have hj : (16 * i.val + j.val) % 16 = j.val := by have := j.isLt; omega
    congr 1 <;> exact Fin.ext (by simp only [hi, hj])
  rw [hL, hR]
  refine Finset.sum_congr rfl fun i _ => ?_
  exact Finset.sum_comm

/-- The re-tiling law over the rank-2 index set: the sum over the 256 blocks, numbered row-major, of the sums over each
    512 x 512 block is the sum over every index. -/
theorem sum_retile {M : Type*} [AddCommMonoid M] (L : Cert.ReferenceIdeal.S8192x8192.Idx → M) :
    ∑ t : Fin 256, ∑ r : Fin 512, ∑ c : Fin 512,
        L (ix2 (⟨512 * (t.val / 16) + r.val, tile_lt _ (by have := t.isLt; omega) r⟩ : Fin 8192)
          (⟨512 * (t.val % 16) + c.val, tile_lt _ (by have := t.isLt; omega) c⟩ : Fin 8192))
      = ∑ idx : Cert.ReferenceIdeal.S8192x8192.Idx, L idx := by
  rw [sum_idx2 L]
  exact sum_retile_fun (fun a b => L (ix2 a b))

/-- The same with the blocks numbered by their two block coordinates. -/
theorem sum_retile_grid {M : Type*} [AddCommMonoid M] (L : Cert.ReferenceIdeal.S8192x8192.Idx → M) :
    ∑ i : Fin 16, ∑ j : Fin 16, ∑ r : Fin 512, ∑ c : Fin 512,
        L (ix2 (⟨512 * i.val + r.val, tile_lt _ i.isLt r⟩ : Fin 8192) (⟨512 * j.val + c.val, tile_lt _ j.isLt c⟩ : Fin 8192))
      = ∑ idx : Cert.ReferenceIdeal.S8192x8192.Idx, L idx := by
  rw [← sum_retile L, sum_fin_split 16 16 256 (by norm_num) (fun t : Fin 256 => ∑ r : Fin 512, ∑ c : Fin 512,
        L (ix2 (⟨512 * (t.val / 16) + r.val, tile_lt _ (by have := t.isLt; omega) r⟩ : Fin 8192)
          (⟨512 * (t.val % 16) + c.val, tile_lt _ (by have := t.isLt; omega) c⟩ : Fin 8192)))]
  refine Finset.sum_congr rfl fun i _ => Finset.sum_congr rfl fun j _ =>
    Finset.sum_congr rfl fun r _ => Finset.sum_congr rfl fun c _ => ?_
  have hi : (16 * i.val + j.val) / 16 = i.val := by have := j.isLt; omega
  have hj : (16 * i.val + j.val) % 16 = j.val := by have := j.isLt; omega
  congr 2 <;> exact Fin.ext (by simp only [hi, hj])

/-- The reference's total: its reduction over both axes from the zero word is the sum of the loss matrix over every
    index, so the sum over the blocks of the sums over each block. -/
theorem val_main_v24_tiles (X : (⟨Cert.ReferenceIdeal.S8192x64, .f32⟩ : BufTy).Contents (Elt Ideal))
    (C : (⟨Cert.ReferenceIdeal.S8192, .i32⟩ : BufTy).Contents (Elt Ideal)) (i0 : Cert.ReferenceIdeal.S_.Idx) :
    Cert.ReferenceIdeal.Read.val_main_v24 (F := Ideal) X C i0
      = ∑ t : Fin 256, ∑ r : Fin 512, ∑ c : Fin 512,
          Cert.ReferenceIdeal.Read.val_main_v23 (F := Ideal) X C
            (ix2 (⟨512 * (t.val / 16) + r.val, tile_lt _ (by have := t.isLt; omega) r⟩ : Fin 8192)
              (⟨512 * (t.val % 16) + c.val, tile_lt _ (by have := t.isLt; omega) c⟩ : Fin 8192)) := by
  rw [Cert.ReferenceIdeal.Read.val_main_v24_apply, Cert.ReferenceIdeal.Read.val_main_cst_4_apply]
  show Ideal.ofBits .f32 0x00000000#32 + _ = _
  rw [Ideal.ofBits_zero_f32, zero_add, sum_retile]

end Cert.KernelIdeal.BlockSums

end
-- ==== Proof.BlockTotal.lean ====
/-
  The sum of one grid point's block of losses is the sum of the reference's loss matrix over that block, and the
  sum over the 256 grid points of the block sums is the reference's total.

  At grid point t = 16 i + j the four windows hold rows 512 i … and rows 512 j … of the row matrix and the labels of
  those rows, so the block of losses is the loss matrix restricted to rows 512 i … and columns 512 j …; the 256
  blocks tile the 8192 x 8192 matrix, so their sums add up to the sum over every index.
-/
import proofs.«180346_j15504831938685_1_alg».proof.Proof.BlockReads
import proofs.«180346_j15504831938685_1_alg».proof.Proof.BlockLoss
import proofs.«180346_j15504831938685_1_alg».proof.Proof.BlockSumsRetile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

open scoped BigOperators

variable (mI : (ℓ : Loc nD τ sig) → Buf (Elt Ideal) ℓ)

/-- One grid point's block of losses, summed, is the reference's loss matrix summed over that block. -/
theorem blockTotal_eq (c : Dev nD) (t : Fin cfg0.N) :
    (∑ r : Fin 512, ∑ c' : Fin 512,
        Blocks.lossBlk (F := Ideal) (iblk mI c 0 t) (iblk mI c 1 t) (iblk mI c 2 t) (iblk mI c 3 t) (ix2 r c'))
      = ∑ r : Fin 512, ∑ c' : Fin 512,
          Cert.ReferenceIdeal.Read.val_main_v23 (F := Ideal)
            (mI ((c : Thread nD τ).loc main_arg0)) (mI ((c : Thread nD τ).loc main_arg1))
            (ix2 (⟨512 * (t.val / 16) + r.val, BlockSums.tile_lt _ (by have := t_lt t; omega) r⟩ : Fin 8192)
              (⟨512 * (t.val % 16) + c'.val, BlockSums.tile_lt _ (by omega) c'⟩ : Fin 8192)) := by
  refine Finset.sum_congr rfl fun r _ => Finset.sum_congr rfl fun c' _ => ?_
  exact BlockLoss.lossBlk_eq
    (mI ((c : Thread nD τ).loc main_arg0)) (mI ((c : Thread nD τ).loc main_arg1))
    ⟨t.val / 16, by have := t_lt t; omega⟩ ⟨t.val % 16, by omega⟩
    (iblk mI c 0 t) (iblk mI c 1 t) (iblk mI c 2 t) (iblk mI c 3 t)
    (fun r k => iblk0_apply mI c t r k) (fun r k => iblk1_apply mI c t r k)
    (fun r => iblk2_apply mI c t r) (fun c' => iblk3_apply mI c t c') r c'

/-- The block sums of the 256 grid points add up to the reference's total. -/
theorem total_eq (c : Dev nD) (h256 : cfg0.N = 256) (i0 : Cert.ReferenceIdeal.S_.Idx) :
    (∑ t : Fin 256, ∑ r : Fin 512, ∑ c' : Fin 512,
        Blocks.lossBlk (F := Ideal) (iblk mI c 0 ⟨t.val, by omega⟩) (iblk mI c 1 ⟨t.val, by omega⟩)
          (iblk mI c 2 ⟨t.val, by omega⟩) (iblk mI c 3 ⟨t.val, by omega⟩) (ix2 r c'))
      = Cert.ReferenceIdeal.Read.val_main_v24 (F := Ideal)
          (mI ((c : Thread nD τ).loc main_arg0)) (mI ((c : Thread nD τ).loc main_arg1)) i0 := by
  rw [BlockSums.val_main_v24_tiles]
  refine Finset.sum_congr rfl fun t _ => ?_
  exact blockTotal_eq mI c ⟨t.val, by omega⟩

end Cert.KernelIdeal.Hand

end
-- ==== Proof.Value.lean ====
/-
  The two idealized programs end with the same number.

  The kernel's result buffer holds (the 1x1 result array) / 2^26, and the result array holds the accumulator
  after the last grid point: the sum, over the 256 grid points, of the sums of their 512x512 loss blocks.  Each
  block is the reference's 8192x8192 loss matrix restricted to a tile, the tiles partition the matrix, and a sum
  over the extended reals may be taken tile by tile; so the accumulator is the reference's sum of the whole
  matrix, and dividing by the same constant gives the reference's result.
-/
import proofs.«180346_j15504831938685_1_alg».proof.Proof.Result
import proofs.«180346_j15504831938685_1_alg».proof.Proof.LastBlock
import proofs.«180346_j15504831938685_1_alg».proof.Proof.Chain
import proofs.«180346_j15504831938685_1_alg».proof.Proof.BlockTotal
import proofs.«180346_j15504831938685_1_alg».proof.Proof.Gen.ReferenceIdeal.Run
import proofs.«180346_j15504831938685_1_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-- The result array is the running sum after the last grid point. -/
theorem outN_acc (c : Dev nD) : outN mI c = acc mI c 255 lastLt :=
  outN_of mI c (acc mI c 255 lastLt) (by rw [after_4]; exact congrArg Prod.fst (outsAt_eq mI c 255 lastLt))

/-- The kernel's result buffer is the reference's result stage of the same argument arrays. -/
theorem result_eq (c : Dev nD) : V₃ mI c (Proc.devRef .tc main_v4)
    = Cert.ReferenceIdeal.Read.val_main_v25 (F := Ideal) (mI ((c : Thread nD τ).loc main_arg0)) (mI ((c : Thread nD τ).loc main_arg1)) := by
  rw [V₃_v4, outN_acc]
  unfold Cert.ReferenceIdeal.Read.val_main_v25
  refine congrArg₂ Host.divf (funext fun i0 => ?_) rfl
  show acc mI c 255 lastLt _ = _
  rw [acc_last mI c lastLt]
  exact total_eq mI c N_0 i0

end Cert.KernelIdeal.Hand

end
-- ==== Proof.lean ====
/-
  The certificate's five claims.

  The kernel computes the mean of a pairwise cosine-margin loss over 8192 row vectors without ever forming the
  8192x8192 loss matrix: over a 16x16 grid it forms one 512x512 tile at a time, sums it, and adds the sum to a
  1x1 accumulator; at the end the accumulated sum is divided by 2^26.  The reference forms the whole matrix, sums
  it, and divides by the same constant.

  The three frames: each program terminates without fault and leaves its arguments as launched — the kernel's
  (read at the word level and at the ideal instance) by the region's launch with the row matrix's share split
  between the two windows that read it, the reference's by its run.  The idealization rewrote nothing.  Over the
  extended reals the two idealized programs end with equal results: the accumulator is the tile-by-tile sum of the
  reference's own loss matrix.
-/
import proofs.«180346_j15504831938685_1_alg».proof.Defs
import proofs.«180346_j15504831938685_1_alg».proof.Proof.Gen.Kernel
import proofs.«180346_j15504831938685_1_alg».proof.Proof.Gen.KernelIdeal
import proofs.«180346_j15504831938685_1_alg».proof.Proof.Gen.ReferenceIdeal
import proofs.«180346_j15504831938685_1_alg».proof.Proof.Gen.Pre_finite_inputs
import proofs.«180346_j15504831938685_1_alg».proof.Proof.Gen.ReferenceIdeal.Run
import proofs.«180346_j15504831938685_1_alg».proof.Proof.Gen.ReferenceIdeal.Read
import proofs.«180346_j15504831938685_1_alg».proof.Proof.WResult
import proofs.«180346_j15504831938685_1_alg».proof.Proof.Value
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ
theorem frame_kernelIdeal : Cert.frame_KernelIdeal := fun m ρ _ => Cert.KernelIdeal.Hand.frame (F := Ideal) m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories agreeing on the arguments, both idealized programs end with the reference's result stage of
    those arguments in their result buffers. -/
theorem algebraic : Cert.algebraic_KernelIdeal_ReferenceIdeal := by
  intro m ρ m' ρ' _ hagree
  refine ⟨fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2.1.trans (Cert.KernelIdeal.Hand.V₃_arg0 m c), (h c).2.2.trans (Cert.KernelIdeal.Hand.V₃_arg1 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v25_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
